-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32x1024x1024 .f32) (main_arg1 : FVec F S32x1024x1024 .f32) (main_arg2 : FVec F S1024x1024 .f32) (main_arg3 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32x1024x1024 : Shape := ⟨3, ![32, 1024, 1024]⟩
abbrev S1024x1024 : Shape := ⟨2, ![1024, 1024]⟩
abbrev S1024 : Shape := ⟨1, ![1024]⟩
abbrev S1x1024 : Shape := ⟨2, ![1, 1024]⟩
abbrev S32x3072x1024 : Shape := ⟨3, ![32, 3072, 1024]⟩
abbrev S1x1024x256 : Shape := ⟨3, ![1, 1024, 256]⟩
abbrev S1x1024x1024 : Shape := ⟨3, ![1, 1024, 1024]⟩
abbrev S1x3072x1024 : Shape := ⟨3, ![1, 3072, 1024]⟩
abbrev S1024x256 : Shape := ⟨2, ![1024, 256]⟩
abbrev S1024x1 : Shape := ⟨2, ![1024, 1]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1024x1024, .f32⟩
  | .hbm, ⟨3, _⟩ => ⟨S1024, .f32⟩
  | .hbm, ⟨4, _⟩ => ⟨S32x1024x1024, .f32⟩
  | .hbm, ⟨5, _⟩ => ⟨S1024x1024, .bf16⟩
  | .hbm, ⟨6, _⟩ => ⟨S1x1024, .f32⟩
  | .hbm, ⟨7, _⟩ => ⟨S32x1024x1024, .f32⟩
  | .hbm, ⟨8, _⟩ => ⟨S32x1024x1024, .f32⟩
  | .hbm, ⟨9, _⟩ => ⟨S32x3072x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1024, .f32⟩
  | .local _ .vmem, ⟨3, _⟩ => ⟨S1024x1024, .bf16⟩
  | .local _ .vmem, ⟨4, _⟩ => ⟨S1x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x3072x1024, .f32⟩
  | .local _ .vmem, ⟨8, _⟩ => ⟨S1024x1024, .bf16⟩
  | .local _ .vmem, ⟨9, _⟩ => ⟨S1x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_26 : BitVec 32 := 0#32
  let v47 : BitVec 1 := Scalar.cmpi .ne v46 c0_i32_26
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x3072x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

class Facts₀ : Prop where
  transposes_S32x1024x1024_S32x1024x1024_0_2_1 : S32x1024x1024.Transposes [0, 2, 1] S32x1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S1024x1024_S1x1024x1024 : S1024x1024.ShapeCasts S1x1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S1x1024_p1_0_S1024x1 : S1x1024.Transposes [1, 0] S1024x1
  broadcasts_S1024x1_S1024x256 : S1024x1.Broadcasts S1024x256
  reduces_S256x1024_S256 : S256x1024.Reduces [1] S256
  shapeCasts_S256_S256x1 : S256.ShapeCasts S256x1
  broadcasts_S256x1_S256x1024 : S256x1.Broadcasts S256x1024
  reduces_S256x1024_S1024 : S256x1024.Reduces [0] S1024
  broadcasts_S1024x1_S1024x1024 : S1024x1.Broadcasts S1024x1024
  inb_S1x3072x1024_S1x1024x1024_0_0_0 : ∀ a, (![0, 0, 0] : Fin 3 → Nat) a + S1x1024x1024.size a ≤ S1x3072x1024.size a
  inb_S1x3072x1024_S1x1024x1024_0_1024_0 : ∀ a, (![0, 1024, 0] : Fin 3 → Nat) a + S1x1024x1024.size a ≤ S1x3072x1024.size a
  inb_S1x3072x1024_S1x1024x1024_0_2048_0 : ∀ a, (![0, 2048, 0] : Fin 3 → Nat) a + S1x1024x1024.size a ≤ S1x3072x1024.size a
  dot_S1024x1024_S1024x1024_S1024x1024_1_1_0_0_n_n_wf : DotDims.WF S1024x1024 S1024x1024 S1024x1024 [1] [1] [0] [0] [] []
  dot_S1024x1024_S1024x256_S1024x256_1_0_0_1_n_n_wf : DotDims.WF S1024x1024 S1024x256 S1024x256 [1] [0] [0] [1] [] []
  dot_S1024x256_S1024x1024_S256x1024_0_1_1_0_n_n_wf : DotDims.WF S1024x256 S1024x1024 S256x1024 [0] [1] [1] [0] [] []
  dot_S256x1024_S1024x256_S1024x1024_0_1_1_0_n_n_wf : DotDims.WF S256x1024 S1024x256 S1024x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x1024.size a
  hwx0_0 : ∀ i : grid0.Coords, EltTy.bits .f32 = 32 ∨ (Rect.block (s := S32x1024x1024) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S32x1024x1024.size a
  hwx0_4 : ∀ i : grid0.Coords, EltTy.bits .f32 = 32 ∨ (Rect.block (s := S32x1024x1024) S1x1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S32x1024x1024.size a
  hwx0_5 : ∀ i : grid0.Coords, EltTy.bits .f32 = 32 ∨ (Rect.block (s := S32x1024x1024) S1x1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072x1024.size a ≤ S32x3072x1024.size a
  hwx0_6 : ∀ i : grid0.Coords, EltTy.bits .f32 = 32 ∨ (Rect.block (s := S32x3072x1024) S1x3072x1024.size (cc0_transform_6 i) (hinb0_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S1024x1024_S256x1024_0_1_1_0_n_n : DotDims S1024x256 S1024x1024 S256x1024 where
  lhsContracting := [0]
  rhsContracting := [1]
  lhsNonContracting := [1]
  rhsNonContracting := [0]
  lhsBatch := []
  rhsBatch := []
  wf := dot_S1024x256_S1024x1024_S256x1024_0_1_1_0_n_n_wf
def dot_S256x1024_S1024x256_S1024x1024_0_1_1_0_n_n : DotDims S256x1024 S1024x256 S1024x1024 where
  lhsContracting := [0]
  rhsContracting := [1]
  lhsNonContracting := [1]
  rhsNonContracting := [0]
  lhsBatch := []
  rhsBatch := []
  wf := dot_S256x1024_S1024x256_S1024x1024_0_1_1_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1024x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1024x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x3072x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S32x1024 : Shape := ⟨2, ![32, 1024]⟩
abbrev S32x1x1024 : Shape := ⟨3, ![32, 1, 1024]⟩
abbrev S32x1024x1 : Shape := ⟨3, ![32, 1024, 1]⟩
abbrev S32x3072x1024 : Shape := ⟨3, ![32, 3072, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1024x1024, .f32⟩
  | .hbm, ⟨3, _⟩ => ⟨S1024, .f32⟩
  | .hbm, ⟨4, _⟩ => ⟨S32x1024x1024, .f32⟩
  | .hbm, ⟨5, _⟩ => ⟨S32x1024x1024, .f32⟩
  | .hbm, ⟨6, _⟩ => ⟨S_, .f32⟩
  | .hbm, ⟨7, _⟩ => ⟨S_, .f32⟩
  | .hbm, ⟨8, _⟩ => ⟨S32x1024x1024, .f32⟩
  | .hbm, ⟨9, _⟩ => ⟨S1x1x1024, .f32⟩
  | .hbm, ⟨10, _⟩ => ⟨S32x1024x1024, .f32⟩
  | .hbm, ⟨11, _⟩ => ⟨S32x1024x1024, .f32⟩
  | .hbm, ⟨12, _⟩ => ⟨S_, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S1x1x1024, .f32⟩
  | .hbm, ⟨17, _⟩ => ⟨S32x1024x1024, .f32⟩
  | .hbm, ⟨18, _⟩ => ⟨S32x1024x1024, .f32⟩
  | .hbm, ⟨19, _⟩ => ⟨S_, .f32⟩
  | .hbm, ⟨20, _⟩ => ⟨S32x1024x1024, .f32⟩
  | .hbm, ⟨21, _⟩ => ⟨S32x1024x1024, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024, .f32⟩
  | .hbm, ⟨27, _⟩ => ⟨S_, .f32⟩
  | .hbm, ⟨28, _⟩ => ⟨S32x1024, .f32⟩
  | .hbm, ⟨29, _⟩ => ⟨S32x1024, .f32⟩
  | .hbm, ⟨30, _⟩ => ⟨S32x1x1024, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S_, .f32⟩
  | .hbm, ⟨35, _⟩ => ⟨S32x1024, .f32⟩
  | .hbm, ⟨36, _⟩ => ⟨S32x1x1024, .f32⟩
  | .hbm, ⟨37, _⟩ => ⟨S32x1024x1024, .f32⟩
  | .hbm, ⟨38, _⟩ => ⟨S32x1024x1024, .f32⟩
  | .hbm, ⟨39, _⟩ => ⟨S_, .f32⟩
  | .hbm, ⟨40, _⟩ => ⟨S32x1024, .f32⟩
  | .hbm, ⟨41, _⟩ => ⟨S32x1024x1, .f32⟩
  | .hbm, ⟨42, _⟩ => ⟨S32x1024x1024, .f32⟩
  | .hbm, ⟨43, _⟩ => ⟨S32x1024x1024, .f32⟩
  | .hbm, ⟨44, _⟩ => ⟨S32x1024x1024, .f32⟩
  | .hbm, ⟨45, _⟩ => ⟨S32x3072x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_cst : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  transposes_S32x1024x1024_S32x1024x1024_0_2_1 : S32x1024x1024.Transposes [0, 2, 1] S32x1024x1024
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S_S32x1024x1024 : S_.BroadcastsInDim S32x1024x1024 (![] : Fin 0 → Fin S32x1024x1024.rank)
  reducesTo_S32x1024x1024_S32x1024_d1 : S32x1024x1024.ReducesTo [1] S32x1024
  h_S_ : 0 < S_.numel
  bcast_S_S32x1024 : S_.BroadcastsInDim S32x1024 (![] : Fin 0 → Fin S32x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  concatenates_S32x1024x1024_S32x1024x1024_S32x1024x1024_S32x3072x1024_d1 : Shape.Concatenates [S32x1024x1024, S32x1024x1024, S32x1024x1024] S32x3072x1024 1
  dot_S32x1024x1024_S1024x1024_S32x1024x1024_2_1_01_0_n_n_wf : DotDims.WF S32x1024x1024 S1024x1024 S32x1024x1024 [2] [1] [0, 1] [0] [] []
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf

class Facts : Prop extends Facts₀ where

variable [Facts]
-- ==== Proof.Spec.lean ====
/-
  The mathematics both programs compute, written once over plain functions on literal index types.

  For one batch member, with the paper block `p d j` (feature d, paper position j), the review block
  already transposed `r i d` (review position i, feature d), the weights `W o d` and the bias `β o`:

    rlin i o   = max (∑ d, r i d · W o d + β o) 0            the review's ReLU-linear image
    plin o j   = max (∑ d, W o d · p d j + β o) 0            the paper's, one COLUMN per paper position j
    aff j i    = (∑ o, plin o j · rlin i o) · s              the scaled affinity of paper position j and review position i
    soft j i   = exp (aff j i − max_i aff j i) / ∑ i exp (…) the softmax over the review positions i, column by column
    Rp i d     = r i d · ∑ j, soft j i
    Pr i d     = ∑ j, soft j i · p d j
    Rc         = r, Rp, Pr stacked along the review axis.

  Everything up to `soft` is computed one paper column j at a time, so the functions are stated over an
  arbitrary type `J` of columns: a tile of 256 columns is the whole computation restricted to those columns,
  definitionally. Only the two sums over j at the end see all columns; cut into four tiles of 256 and
  accumulated from zero, tile after tile, they are the same sums (`acc_three_eq_sum`): on the extended
  reals addition is associative and `0 + x = x`, which is all the regrouping uses.
-/
import Idealize.ShloMosaic.PureOps.Ideal.Laws
import Idealize.ShloMosaic.Lib.ValueIdx

noncomputable section

namespace Cert.Spec

open Idealize.ShloMosaic

/-- The scale the affinity is multiplied by: the f32 word of `0.03125 = 1/32`. -/
abbrev sK : EReal := Ideal.ofBits .f32 0x3D000000#32
/-- The value a column's running maximum starts from: the f32 word of `−∞`. -/
abbrev ninfK : EReal := Ideal.ofBits .f32 0xFF800000#32

variable {J : Type}

/-- The review side's ReLU-linear image at (review position i, output feature o). -/
def rlin (r W : Fin 1024 → Fin 1024 → EReal) (β : Fin 1024 → EReal) (i o : Fin 1024) : EReal :=
  max (∑ d : Fin 1024, r i d * W o d + β o) 0

/-- The paper side's ReLU-linear image at (output feature o, column j). -/
def plin (p : Fin 1024 → J → EReal) (W : Fin 1024 → Fin 1024 → EReal) (β : Fin 1024 → EReal) (o : Fin 1024) (j : J) : EReal :=
  max (∑ d : Fin 1024, W o d * p d j + β o) 0

/-- The scaled affinity of column j with review position i, from the two images. -/
def aff (pl : Fin 1024 → J → EReal) (rl : Fin 1024 → Fin 1024 → EReal) (s : EReal) (j : J) (i : Fin 1024) : EReal :=
  (∑ o : Fin 1024, pl o j * rl i o) * s

/-- A column's maximum over the review positions, from the starting value `ninf`. -/
def colMax (a : J → Fin 1024 → EReal) (ninf : EReal) (j : J) : EReal :=
  (Finset.univ : Finset (Fin 1024)).fold max ninf (fun i => a j i)

/-- The shifted exponential. -/
def ex (a : J → Fin 1024 → EReal) (ninf : EReal) (j : J) (i : Fin 1024) : EReal :=
  Ideal.exp (a j i - colMax a ninf j)

/-- A column's normalizer. -/
def colZ (a : J → Fin 1024 → EReal) (ninf : EReal) (j : J) : EReal :=
  ∑ i : Fin 1024, ex a ninf j i

/-- The softmax over the review positions of column j, at review position i. -/
def soft (a : J → Fin 1024 → EReal) (ninf : EReal) (j : J) (i : Fin 1024) : EReal :=
  Ideal.div (ex a ninf j i) (colZ a ninf j)

/-- The attention weight of column j on review position i, from the inputs. -/
def coef (p : Fin 1024 → J → EReal) (r W : Fin 1024 → Fin 1024 → EReal) (β : Fin 1024 → EReal) (s ninf : EReal)
    (j : J) (i : Fin 1024) : EReal :=
  soft (aff (plin p W β) (rlin r W β) s) ninf j i

/-- Restricting the paper block to some columns restricts the weights to those columns: every step is columnwise. -/
theorem coef_comp {J' : Type} (e : J' → J) (p : Fin 1024 → J → EReal) (r W : Fin 1024 → Fin 1024 → EReal)
    (β : Fin 1024 → EReal) (s ninf : EReal) (j : J') (i : Fin 1024) :
    coef (fun d j' => p d (e j')) r W β s ninf j i = coef p r W β s ninf (e j) i := rfl

/-! ## Four tiles of 256 columns -/

/-- Column `jj` of tile `t` (reduced mod 1024 so that it is a column for every natural `t`; for `t < 4` it is `256·t + jj`). -/
def tcol (t : ℕ) (jj : Fin 256) : Fin 1024 := ⟨(256 * t + jj.val) % 1024, Nat.mod_lt _ (by norm_num)⟩

theorem tcol_val (t : ℕ) (ht : t < 4) (jj : Fin 256) : (tcol t jj).val = 256 * t + jj.val := by
  have := jj.isLt
  show (256 * t + jj.val) % 1024 = _
  exact Nat.mod_eq_of_lt (by omega)

/-- What an accumulator started at zero holds after tiles 0 … k: `((0 + g 0) + g 1) + … + g k`. -/
def acc (g : ℕ → EReal) : ℕ → EReal
  | 0 => 0 + g 0
  | k + 1 => acc g k + g (k + 1)

/-- A sum over the 1024 columns is the sum over the four tiles of the sums over each tile's 256 columns. -/
theorem sum_tiles (f : Fin 1024 → EReal) :
    ∑ j : Fin 1024, f j = ∑ t : Fin 4, ∑ jj : Fin 256, f (tcol t.val jj) := by
  rw [← Fintype.sum_prod_type']
  refine (Fintype.sum_equiv (finProdFinEquiv (m := 4) (n := 256)) _ _ fun x => ?_).symm
  refine congrArg f (Fin.ext ?_)
  rw [tcol_val _ x.1.isLt]
  simp [finProdFinEquiv]
  omega

/-- So the accumulator after the fourth tile holds the sum over all columns. -/
theorem acc_three_eq_sum (f : Fin 1024 → EReal) :
    acc (fun t => ∑ jj : Fin 256, f (tcol t jj)) 3 = ∑ j : Fin 1024, f j := by
  rw [sum_tiles, Fin.sum_univ_four]
  simp only [acc, zero_add]
  rfl

/-! ## The three results, per batch member -/

section Results

variable (P R : Fin 32 → Fin 1024 → Fin 1024 → EReal) (W : Fin 1024 → Fin 1024 → EReal) (β : Fin 1024 → EReal)
  (s ninf : EReal)

/-- Batch member b's attention weights: paper position j on review position i. `P b d j` and `R b d i` are the
    two inputs as given (feature axis in the middle). -/
def weight (b : Fin 32) (j i : Fin 1024) : EReal :=
  coef (fun d j => P b d j) (fun i d => R b d i) W β s ninf j i

/-- The review rows scaled by their total attention. -/
def Rp (b : Fin 32) (i d : Fin 1024) : EReal := R b d i * ∑ j : Fin 1024, weight P R W β s ninf b j i

/-- The attention-weighted sums of the paper rows. -/
def Pr (b : Fin 32) (i d : Fin 1024) : EReal := ∑ j : Fin 1024, weight P R W β s ninf b j i * P b d j

/-- The transposed review, `Rp` and `Pr` stacked along the middle axis. -/
def Rc (b : Fin 32) (k : Fin 3072) (d : Fin 1024) : EReal :=
  if h : k.val < 1024 then R b d ⟨k.val, h⟩
  else if h2 : k.val < 2048 then Rp P R W β s ninf b ⟨k.val - 1024, by have := k.isLt; omega⟩ d
  else Pr P R W β s ninf b ⟨k.val - 2048, by have := k.isLt; omega⟩ d

end Results

/-! ## The results as arrays of the argument arrays -/

open ValueIdx

/-- A rank-3 array as a function of its three coordinates; likewise ranks 2 and 1. -/
abbrev cur3 {n0 n1 n2 : Nat} (x : (⟨3, ![n0, n1, n2]⟩ : Shape).Idx → EReal) : Fin n0 → Fin n1 → Fin n2 → EReal :=
  fun a b c => x (ix3 a b c)
abbrev cur2 {n0 n1 : Nat} (x : (⟨2, ![n0, n1]⟩ : Shape).Idx → EReal) : Fin n0 → Fin n1 → EReal :=
  fun a b => x (ix2 a b)
abbrev cur1 {n0 : Nat} (x : (⟨1, ![n0]⟩ : Shape).Idx → EReal) : Fin n0 → EReal :=
  fun a => x (ix1 a)

section Arrays

variable (paper review : (⟨3, ![32, 1024, 1024]⟩ : Shape).Idx → EReal) (w : (⟨2, ![1024, 1024]⟩ : Shape).Idx → EReal)
  (bias : (⟨1, ![1024]⟩ : Shape).Idx → EReal)

/-- The first result array. -/
def outRp : (⟨3, ![32, 1024, 1024]⟩ : Shape).Idx → EReal :=
  fun i => Rp (cur3 paper) (cur3 review) (cur2 w) (cur1 bias) sK ninfK (i 0) (i 1) (i 2)
/-- The second. -/
def outPr : (⟨3, ![32, 1024, 1024]⟩ : Shape).Idx → EReal :=
  fun i => Pr (cur3 paper) (cur3 review) (cur2 w) (cur1 bias) sK ninfK (i 0) (i 1) (i 2)
/-- The third. -/
def outRc : (⟨3, ![32, 3072, 1024]⟩ : Shape).Idx → EReal :=
  fun i => Rc (cur3 paper) (cur3 review) (cur2 w) (cur1 bias) sK ninfK (i 0) (i 1) (i 2)

end Arrays

end Cert.Spec

end
-- ==== Proof.RefSpec.lean ====
/-
  The reference is the specification. The reference computes, for batch member b, with the paper `P b d j` and the
  review `R b d i` (feature axis in the middle):

    p = Pᵀ, r = Rᵀ                                     (position first, feature last)
    plin j o = max (∑ d, p j d · W o d + β o) 0,   rlin i o = max (∑ d, r i d · W o d + β o) 0
    aff i j  = (∑ o, rlin i o · plin j o) / √1024
    C i j    = exp (aff i j − m j) / (0 + ∑ i, exp (aff i j − m j)),   m j = max (−∞) (max over i of aff i j, from −∞)
    Rp i d   = r i d · (0 + ∑ j, C i j),   Pr i d = ∑ j, C i j · p j d,   Rc = r, Rp, Pr stacked along the position axis.

  Read one stage at a time at literal coordinates, each stage is the specification's function of the same name
  (Spec.lean: `plin`, `rlin`, `aff`, `colMax`, `ex`, `colZ`, `weight`, `Rp`, `Pr`, `Rc`), with the paper position j first and
  the review position i second. What differs is spelling, and each difference is an identity of the extended reals that
  needs no finiteness:
    * products in the other order inside the matrix products `plin` and `aff` — multiplication commutes;
    * division by √1024 where the specification multiplies by the word of 1/32 — 1024 = 32 · 32, and x / 32 = x · (1/32)
      for every extended real x (`div_sqrt_1024`);
    * the softmax maximum `max (−∞) (fold)` — the fold of `max` already starts at −∞, so it is at least −∞ and the outer
      `max` is the fold;
    * the sums `0 + ∑` and ReLU's zero spelt as the word of +0.0 — that word denotes 0, and 0 + x = x.
  The attention weight, the reference's softmax at (b, i, j) = the specification's `weight … b j i`, is the one lemma
  `v26_at`; the three results use it and nothing else of the softmax.
-/
import proofs.«155025_j15642270892415_2_alg».proof.Proof.RefRead
import proofs.«155025_j15642270892415_2_alg».proof.Proof.Spec
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.ValueIdx Cert.Spec

/-! ## The two literals of the scale -/

/-- The f32 word of `1024.0` denotes the real 1024. -/
theorem ofBits_1024 : Ideal.ofBits .f32 0x44800000#32 = ((1024 : ℝ) : EReal) := by
  simp [Ideal.ofBits, Ideal.ieee, -EReal.coe_mul]; norm_num

/-- The f32 word of `0.03125` denotes the real 1/32. -/
theorem ofBits_inv32 : Ideal.ofBits .f32 0x3D000000#32 = ((1 / 32 : ℝ) : EReal) := by
  simp [Ideal.ofBits, Ideal.ieee, -EReal.coe_mul]; norm_num

/-- Dividing by the square root of 1024 is multiplying by 1/32, for every extended real. -/
theorem div_sqrt_1024 (x : EReal) :
    Ideal.div x (Ideal.sqrt (Ideal.ofBits .f32 0x44800000#32)) = x * Ideal.ofBits .f32 0x3D000000#32 := by
  have h : Real.sqrt 1024 = 32 := by
    rw [show (1024 : ℝ) = 32 * 32 by norm_num]; exact Real.sqrt_mul_self (by norm_num)
  rw [ofBits_1024, ofBits_inv32, Ideal.sqrt_coe, if_neg (by norm_num), h, Ideal.div_coe (by norm_num)]

variable (x0 x1 : (⟨S32x1024x1024, .f32⟩ : BufTy).Contents (Elt Ideal)) (x2 : (⟨S1024x1024, .f32⟩ : BufTy).Contents (Elt Ideal))
  (x3 : (⟨S1024, .f32⟩ : BufTy).Contents (Elt Ideal))

/-! ## The stages, read at literal coordinates -/

/-- The transposed paper at (b, s, d) is the paper at (b, d, s). -/
theorem v0_at (b : Fin 32) (s d : Fin 1024) : val_main_v0 (F := Ideal) x0 (ix3 b s d) = x0 (ix3 b d s) := by
  rw [val_main_v0_apply]
  exact congrArg x0 (funext fun a => Fin.ext (by match a with | ⟨0, _⟩ => rfl | ⟨1, _⟩ => rfl | ⟨2, _⟩ => rfl))

/-- The transposed review at (b, s, d) is the review at (b, d, s). -/
theorem v1_at (b : Fin 32) (s d : Fin 1024) : val_main_v1 (F := Ideal) x1 (ix3 b s d) = x1 (ix3 b d s) := by
  rw [val_main_v1_apply]
  exact congrArg x1 (funext fun a => Fin.ext (by match a with | ⟨0, _⟩ => rfl | ⟨1, _⟩ => rfl | ⟨2, _⟩ => rfl))

/-- The paper side's ReLU-linear image: the reference's product is `p · W`, the specification's `W · p`. -/
theorem v7_at (b : Fin 32) (j o : Fin 1024) :
    val_main_v7 (F := Ideal) x0 x2 x3 (ix3 b j o) = plin (fun d j => cur3 x0 b d j) (cur2 x2) (cur1 x3) o j := by
  rw [val_main_v7_apply, val_main_v6_apply, val_main_v3_apply, val_main_v5_apply, val_main_v4_apply,
    val_main_call0_v0_apply, val_main_call0_cst_apply]
  simp only [Ideal.maximumf_def, Ideal.addf_def, Ideal.ofBits_def, Ideal.ofBits_zero_f32]
  unfold plin
  have e3 : idx_main_v4 (idx_main_v5 (ix3 b j o)) = ix1 o :=
    funext fun a => Fin.ext (by match a with | ⟨0, _⟩ => rfl)
  rw [e3]
  refine congrArg (fun u => max (u + x3 (ix1 o)) 0) (Finset.sum_congr rfl fun k _ => ?_)
  have e1 : val_main_v0 (F := Ideal) x0 (lidx_main_v3 (ix3 b j o) k) = x0 (ix3 b k j) :=
    (congrArg (val_main_v0 (F := Ideal) x0)
      (funext fun a => Fin.ext (by match a with | ⟨0, _⟩ => rfl | ⟨1, _⟩ => rfl | ⟨2, _⟩ => rfl))).trans (v0_at x0 b j k)
  have e2 : ridx_main_v3 (ix3 b j o) k = ix2 o k :=
    funext fun a => Fin.ext (by match a with | ⟨0, _⟩ => rfl | ⟨1, _⟩ => rfl)
  rw [e1, e2]
  exact mul_comm _ _

/-- The review side's ReLU-linear image. -/
theorem v12_at (b : Fin 32) (i o : Fin 1024) :
    val_main_v12 (F := Ideal) x1 x2 x3 (ix3 b i o) = rlin (fun i d => cur3 x1 b d i) (cur2 x2) (cur1 x3) i o := by
  rw [val_main_v12_apply, val_main_v11_apply, val_main_v8_apply, val_main_v10_apply, val_main_v9_apply,
    val_main_call1_v0_apply, val_main_call1_cst_apply]
  simp only [Ideal.maximumf_def, Ideal.addf_def, Ideal.ofBits_def, Ideal.ofBits_zero_f32]
  unfold rlin
  have e3 : idx_main_v9 (idx_main_v10 (ix3 b i o)) = ix1 o :=
    funext fun a => Fin.ext (by match a with | ⟨0, _⟩ => rfl)
  rw [e3]
  refine congrArg (fun u => max (u + x3 (ix1 o)) 0) (Finset.sum_congr rfl fun k _ => ?_)
  have e1 : val_main_v1 (F := Ideal) x1 (lidx_main_v8 (ix3 b i o) k) = x1 (ix3 b k i) :=
    (congrArg (val_main_v1 (F := Ideal) x1)
      (funext fun a => Fin.ext (by match a with | ⟨0, _⟩ => rfl | ⟨1, _⟩ => rfl | ⟨2, _⟩ => rfl))).trans (v1_at x1 b i k)
  have e2 : ridx_main_v8 (ix3 b i o) k = ix2 o k :=
    funext fun a => Fin.ext (by match a with | ⟨0, _⟩ => rfl | ⟨1, _⟩ => rfl)
  rw [e1, e2]

/-- Batch member b's scaled affinity as the specification states it, at (paper position j, review position i). -/
abbrev affB (b : Fin 32) : Fin 1024 → Fin 1024 → EReal :=
  aff (plin (fun d j => cur3 x0 b d j) (cur2 x2) (cur1 x3)) (rlin (fun i d => cur3 x1 b d i) (cur2 x2) (cur1 x3)) sK

/-- The reference's affinity at (b, review position i, paper position j): its product is `rlin · plin`, the
    specification's `plin · rlin`, and it divides by the square root of 1024 where the specification multiplies by 1/32. -/
theorem v15_at (b : Fin 32) (i j : Fin 1024) :
    val_main_v15 (F := Ideal) x0 x1 x2 x3 (ix3 b i j) = affB x0 x1 x2 x3 b j i := by
  rw [val_main_v15_apply, val_main_v13_apply, val_main_v14_apply, val_main_v2_apply, val_main_cst_apply]
  simp only [Ideal.hostDivf_def, Ideal.hostUnary_sqrt_def, Ideal.ofBits_def]
  rw [div_sqrt_1024]
  unfold affB aff
  refine congrArg (fun u => u * sK) (Finset.sum_congr rfl fun k _ => ?_)
  have e1 : val_main_v12 (F := Ideal) x1 x2 x3 (lidx_main_v13 (ix3 b i j) k)
      = rlin (fun i d => cur3 x1 b d i) (cur2 x2) (cur1 x3) i k :=
    (congrArg (val_main_v12 (F := Ideal) x1 x2 x3) (funext fun a => Fin.ext (by match a with | ⟨0, _⟩ => rfl | ⟨1, _⟩ => rfl | ⟨2, _⟩ => rfl))).trans (v12_at x1 x2 x3 b i k)
  have e2 : val_main_v7 (F := Ideal) x0 x2 x3 (ridx_main_v13 (ix3 b i j) k)
      = plin (fun d j => cur3 x0 b d j) (cur2 x2) (cur1 x3) k j :=
    (congrArg (val_main_v7 (F := Ideal) x0 x2 x3) (funext fun a => Fin.ext (by match a with | ⟨0, _⟩ => rfl | ⟨1, _⟩ => rfl | ⟨2, _⟩ => rfl))).trans (v7_at x0 x2 x3 b j k)
  rw [e1, e2]
  exact mul_comm _ _

/-- The reduced index (b, j) with review position k put back on the middle axis is (b, k, j). -/
theorem lift_d1 (h : S32x1024x1024.Reduces [1] S32x1024) (b : Fin 32) (j : Fin 1024) (k : Fin (S32x1024x1024.size 1)) :
    h.lift (ix2 b j) k = ix3 b (⟨k.val, k.isLt⟩ : Fin 1024) j := by
  funext c; apply Fin.ext
  fin_cases c <;> rfl

/-- The reference's max-reduce over the review axis is the column's maximum from −∞. -/
theorem v16_at (b : Fin 32) (j : Fin 1024) :
    val_main_v16 (F := Ideal) x0 x1 x2 x3 (ix2 b j) = colMax (affB x0 x1 x2 x3 b) ninfK j := by
  have h : S32x1024x1024.Reduces [1] S32x1024 := by decide
  unfold val_main_v16
  rw [Host.reduce_eq_fold_single FloatOps.maximumf _ _ reducesTo_S32x1024x1024_S32x1024_d1 h h_S_]
  unfold colMax
  have hf : ((val_main_v15 (F := Ideal) x0 x1 x2 x3 ∘ h.lift (ix2 b j)) : Fin 1024 → EReal)
      = fun i : Fin 1024 => affB x0 x1 x2 x3 b j i :=
    funext fun k => (congrArg (val_main_v15 (F := Ideal) x0 x1 x2 x3) (lift_d1 h b j k)).trans (v15_at x0 x1 x2 x3 b k j)
  exact congrArg (fun f : Fin 1024 → EReal => Finset.fold max ninfK f (Finset.univ : Finset (Fin 1024))) hf

/-- The softmax's maximum is `max (−∞) (the reduce)`: the fold already starts at −∞, so it is the fold. -/
theorem v18_at (b : Fin 32) (j : Fin 1024) :
    val_main_v18 (F := Ideal) x0 x1 x2 x3 (ix2 b j) = colMax (affB x0 x1 x2 x3 b) ninfK j := by
  rw [val_main_v18_apply, val_main_v17_apply, val_main_cst_1_apply, v16_at]
  simp only [Ideal.maximumf_def, Ideal.ofBits_def]
  unfold colMax
  exact max_eq_right ((Finset.le_fold_max _).mpr (Or.inl le_rfl))

/-- The shifted exponential. -/
theorem v22_at (b : Fin 32) (i j : Fin 1024) :
    val_main_v22 (F := Ideal) x0 x1 x2 x3 (ix3 b i j) = ex (affB x0 x1 x2 x3 b) ninfK j i := by
  rw [val_main_v22_apply, val_main_v21_apply, val_main_v20_apply, val_main_v19_apply, v15_at]
  have e : idx_main_v19 (idx_main_v20 (ix3 b i j)) = ix2 b j := (funext fun a => Fin.ext (by match a with | ⟨0, _⟩ => rfl | ⟨1, _⟩ => rfl))
  rw [e, v18_at]
  simp only [Ideal.hostUnary_exp_def, Ideal.subf_def]
  rfl

/-- The column's normalizer: the host sum starts from the word of zero. -/
theorem v23_at (b : Fin 32) (j : Fin 1024) :
    val_main_v23 (F := Ideal) x0 x1 x2 x3 (ix2 b j) = colZ (affB x0 x1 x2 x3 b) ninfK j := by
  rw [val_main_v23_apply, val_main_cst_2_apply]
  simp only [Ideal.ofBits_def, Ideal.ofBits_zero_f32, zero_add]
  unfold colZ
  refine Finset.sum_congr rfl fun k _ => ?_
  exact (congrArg (val_main_v22 (F := Ideal) x0 x1 x2 x3) (funext fun a => Fin.ext (by match a with | ⟨0, _⟩ => rfl | ⟨1, _⟩ => rfl | ⟨2, _⟩ => rfl))).trans (v22_at x0 x1 x2 x3 b k j)

/-- **The attention weight.** The reference's softmax at (b, review position i, paper position j) is the
    specification's weight of paper position j on review position i. -/
theorem v26_at (b : Fin 32) (i j : Fin 1024) :
    val_main_v26 (F := Ideal) x0 x1 x2 x3 (ix3 b i j) = weight (cur3 x0) (cur3 x1) (cur2 x2) (cur1 x3) sK ninfK b j i := by
  rw [val_main_v26_apply, val_main_v25_apply, val_main_v24_apply, v22_at]
  have e : idx_main_v24 (idx_main_v25 (ix3 b i j)) = ix2 b j := (funext fun a => Fin.ext (by match a with | ⟨0, _⟩ => rfl | ⟨1, _⟩ => rfl))
  rw [e, v23_at]
  simp only [Ideal.hostDivf_def]
  rfl

/-- A review position's total attention. -/
theorem v27_at (b : Fin 32) (i : Fin 1024) :
    val_main_v27 (F := Ideal) x0 x1 x2 x3 (ix2 b i) = ∑ j : Fin 1024, weight (cur3 x0) (cur3 x1) (cur2 x2) (cur1 x3) sK ninfK b j i := by
  rw [val_main_v27_apply, val_main_cst_3_apply]
  simp only [Ideal.ofBits_def, Ideal.ofBits_zero_f32, zero_add]
  refine Finset.sum_congr rfl fun k _ => ?_
  exact (congrArg (val_main_v26 (F := Ideal) x0 x1 x2 x3) (funext fun a => Fin.ext (by match a with | ⟨0, _⟩ => rfl | ⟨1, _⟩ => rfl | ⟨2, _⟩ => rfl))).trans (v26_at x0 x1 x2 x3 b i k)

/-! ## The three results -/

/-- The first result at (b, i, d). -/
theorem v30_at (b : Fin 32) (p q : Fin 1024) :
    val_main_v30 (F := Ideal) x0 x1 x2 x3 (ix3 b p q) = Rp (cur3 x0) (cur3 x1) (cur2 x2) (cur1 x3) sK ninfK b p q := by
  rw [val_main_v30_apply, val_main_v29_apply, val_main_v28_apply, v1_at]
  have e : idx_main_v28 (idx_main_v29 (ix3 b p q)) = ix2 b p := (funext fun a => Fin.ext (by match a with | ⟨0, _⟩ => rfl | ⟨1, _⟩ => rfl))
  rw [e, v27_at]
  simp only [Ideal.mulf_def]
  rfl

/-- The second result at (b, i, d). -/
theorem v31_at (b : Fin 32) (p q : Fin 1024) :
    val_main_v31 (F := Ideal) x0 x1 x2 x3 (ix3 b p q) = Pr (cur3 x0) (cur3 x1) (cur2 x2) (cur1 x3) sK ninfK b p q := by
  rw [val_main_v31_apply]
  unfold Pr
  refine Finset.sum_congr rfl fun k _ => ?_
  have e1 : val_main_v26 (F := Ideal) x0 x1 x2 x3 (lidx_main_v31 (ix3 b p q) k) = weight (cur3 x0) (cur3 x1) (cur2 x2) (cur1 x3) sK ninfK b k p :=
    (congrArg (val_main_v26 (F := Ideal) x0 x1 x2 x3) (funext fun a => Fin.ext (by match a with | ⟨0, _⟩ => rfl | ⟨1, _⟩ => rfl | ⟨2, _⟩ => rfl))).trans (v26_at x0 x1 x2 x3 b p k)
  have e2 : val_main_v0 (F := Ideal) x0 (ridx_main_v31 (ix3 b p q) k) = x0 (ix3 b q k) :=
    (congrArg (val_main_v0 (F := Ideal) x0) (funext fun a => Fin.ext (by match a with | ⟨0, _⟩ => rfl | ⟨1, _⟩ => rfl | ⟨2, _⟩ => rfl))).trans (v0_at x0 b k q)
  rw [e1, e2]

theorem v30_eq : val_main_v30 (F := Ideal) x0 x1 x2 x3 = outRp x0 x1 x2 x3 := by
  funext i
  obtain ⟨b, p, q, rfl⟩ : ∃ (b : Fin 32) (p q : Fin 1024), i = ix3 b p q := ⟨i 0, i 1, i 2, eq_ix3 i⟩
  exact v30_at x0 x1 x2 x3 b p q

theorem v31_eq : val_main_v31 (F := Ideal) x0 x1 x2 x3 = outPr x0 x1 x2 x3 := by
  funext i
  obtain ⟨b, p, q, rfl⟩ : ∃ (b : Fin 32) (p q : Fin 1024), i = ix3 b p q := ⟨i 0, i 1, i 2, eq_ix3 i⟩
  exact v31_at x0 x1 x2 x3 b p q

/-- The third result: the transposed review, the first and the second result stacked along the middle axis. An index
    reads the piece whose span of 1024 rows holds its middle coordinate, at that coordinate less the rows before the piece. -/
theorem v32_eq : val_main_v32 (F := Ideal) x0 x1 x2 x3 = outRc x0 x1 x2 x3 := by
  funext i
  obtain ⟨b, k, d, rfl⟩ : ∃ (b : Fin 32) (k : Fin 3072) (d : Fin 1024), i = ix3 b k d := ⟨i 0, i 1, i 2, eq_ix3 i⟩
  have hk := k.isLt
  show concatenate S32x3072x1024 1 [⟨S32x1024x1024, val_main_v1 (F := Ideal) x1⟩, ⟨S32x1024x1024, val_main_v30 (F := Ideal) x0 x1 x2 x3⟩,
      ⟨S32x1024x1024, val_main_v31 (F := Ideal) x0 x1 x2 x3⟩] concatenates_S32x1024x1024_S32x1024x1024_S32x1024x1024_S32x3072x1024_d1 (ix3 b k d)
    = Rc (cur3 x0) (cur3 x1) (cur2 x2) (cur1 x3) sK ninfK b k d
  unfold Rc
  by_cases h1 : k.val < 1024
  · rw [dif_pos h1]
    exact (concatenate_apply_piece (t := S32x3072x1024) 1 [⟨S32x1024x1024, val_main_v1 (F := Ideal) x1⟩, ⟨S32x1024x1024, val_main_v30 (F := Ideal) x0 x1 x2 x3⟩, ⟨S32x1024x1024, val_main_v31 (F := Ideal) x0 x1 x2 x3⟩] concatenates_S32x1024x1024_S32x1024x1024_S32x1024x1024_S32x3072x1024_d1 (ix3 b k d) 0 (by show (0 : ℕ) < 3; omega) S32x1024x1024
      (val_main_v1 (F := Ideal) x1) rfl rfl 0 rfl (ix3 b (⟨k.val, h1⟩ : Fin 1024) d) (fun c hc => by match c with | ⟨0, _⟩ => rfl | ⟨1, _⟩ => exact absurd rfl hc | ⟨2, _⟩ => rfl)
      (Nat.zero_add _)).trans (v1_at x1 b ⟨k.val, h1⟩ d)
  · rw [dif_neg h1]
    by_cases h2 : k.val < 2048
    · rw [dif_pos h2]
      exact (concatenate_apply_piece (t := S32x3072x1024) 1 [⟨S32x1024x1024, val_main_v1 (F := Ideal) x1⟩, ⟨S32x1024x1024, val_main_v30 (F := Ideal) x0 x1 x2 x3⟩, ⟨S32x1024x1024, val_main_v31 (F := Ideal) x0 x1 x2 x3⟩] concatenates_S32x1024x1024_S32x1024x1024_S32x1024x1024_S32x3072x1024_d1 (ix3 b k d) 1 (by show (1 : ℕ) < 3; omega) S32x1024x1024
        (val_main_v30 (F := Ideal) x0 x1 x2 x3) rfl rfl 1024 rfl (ix3 b (⟨k.val - 1024, by omega⟩ : Fin 1024) d) (fun c hc => by match c with | ⟨0, _⟩ => rfl | ⟨1, _⟩ => exact absurd rfl hc | ⟨2, _⟩ => rfl)
        (by show 1024 + (k.val - 1024) = k.val; omega)).trans (v30_at x0 x1 x2 x3 b ⟨k.val - 1024, by omega⟩ d)
    · rw [dif_neg h2]
      exact (concatenate_apply_piece (t := S32x3072x1024) 1 [⟨S32x1024x1024, val_main_v1 (F := Ideal) x1⟩, ⟨S32x1024x1024, val_main_v30 (F := Ideal) x0 x1 x2 x3⟩, ⟨S32x1024x1024, val_main_v31 (F := Ideal) x0 x1 x2 x3⟩] concatenates_S32x1024x1024_S32x1024x1024_S32x1024x1024_S32x3072x1024_d1 (ix3 b k d) 2 (by show (2 : ℕ) < 3; omega) S32x1024x1024
        (val_main_v31 (F := Ideal) x0 x1 x2 x3) rfl rfl 2048 rfl (ix3 b (⟨k.val - 2048, by omega⟩ : Fin 1024) d) (fun c hc => by match c with | ⟨0, _⟩ => rfl | ⟨1, _⟩ => exact absurd rfl hc | ⟨2, _⟩ => rfl)
        (by show 2048 + (k.val - 2048) = k.val; omega)).trans (v31_at x0 x1 x2 x3 b ⟨k.val - 2048, by omega⟩ d)

end Cert.ReferenceIdeal.RefSpec

end
-- ==== Proof.Pieces.lean ====
/-
  What the body leaves in each buffer, case by case, as values.

  The kernel's grid runs over (batch member, paper tile). At a point the body
    - at the first tile of a batch member (case A) stores the review's ReLU-linear image into the first scratch,
      zeroes the column-sum scratch and the Pr block, then adds this tile's share to both;
    - at a middle tile (case B) adds this tile's share to the column-sum scratch and to the Pr block;
    - at the last tile (case C) does the same, then writes Rp = review · column sums, and copies the review
      block, Rp and Pr one under the other into the Rc block.
  Each buffer ends covered by stores whose payloads are the body's pure terms `k0_payN` of what was loaded:
  a covering store read back is its payload, a load after a covering store reads that payload, and the three
  stores into the Rc block, which tile it along its middle axis, read back as the three blocks stacked.
-/
import proofs.«155025_j15642270892415_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.Tactic Idealize.SL.Sem Idealize.ShloMosaic.ValueIdx

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a batch member -/

/-- The first scratch ends holding the review's ReLU-linear image (of the weights, the bias row and the review block). -/
theorem sA0 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : cond0_0 i) (hc1 : ¬cond0_1 i) (x0 : Vec F S1x1024x256 .f32) (x1 : Vec F S1x1024x1024 .f32) (x2 : Vec F S1024x1024 .bf16) (x3 : Vec F S1x1024 .f32) :
    sout0_A_0 c i arg2 harg2 arg3 harg3 arg4 harg4 arg5 harg5 arg6 harg6 arg7 harg7 arg8 harg8 arg9 harg9 arg10 harg10 hc0 hc1 x0 x1 x2 x3 = k0_pay9 x2 x3 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3]

/-- The column-sum scratch ends at zero plus this tile's column sums, the weights computed against the image just stored. -/
theorem sA1 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : cond0_0 i) (hc1 : ¬cond0_1 i) (x0 : Vec F S1x1024x256 .f32) (x1 : Vec F S1x1024x1024 .f32) (x2 : Vec F S1024x1024 .bf16) (x3 : Vec F S1x1024 .f32) :
    sout0_A_1 c i arg2 harg2 arg3 harg3 arg4 harg4 arg5 harg5 arg6 harg6 arg7 harg7 arg8 harg8 arg9 harg9 arg10 harg10 hc0 hc1 x0 x1 x2 x3 = k0_pay1 (k0_pay14 x2 x3 x0 (k0_pay9 x2 x3 x1) k0_pay10) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1024) hz2]
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3, View.readCov_unit_zero (S := S1024x1024) _ hz2, View.readCov_unit_zero (S := S1x1024) _ hz2, View.readCov_unit_zero (S := S1x1024x1024) _ hz3]

/-- The Pr block ends at zero plus this tile's weighted paper rows. -/
theorem oA5 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : cond0_0 i) (hc1 : ¬cond0_1 i) (x0 : Vec F S1x1024x256 .f32) (x1 : Vec F S1x1024x1024 .f32) (x2 : Vec F S1024x1024 .bf16) (x3 : Vec F S1x1024 .f32) :
    out0_A_5 c i arg2 harg2 arg3 harg3 arg4 harg4 arg5 harg5 arg6 harg6 arg7 harg7 arg8 harg8 arg9 harg9 arg10 harg10 hc0 hc1 x0 x1 x2 x3 = k0_pay2 (k0_pay12 x0) (k0_pay13 x2 x3 x0 (k0_pay9 x2 x3 x1)) k0_pay11 := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1024x1024) hz3]
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3, View.readCov_unit_zero (S := S1024x1024) _ hz2, View.readCov_unit_zero (S := S1x1024) _ hz2, View.readCov_unit_zero (S := S1x1024x1024) _ hz3]

/-! ## A middle tile -/

/-- The column-sum scratch: what it held plus this tile's column sums. -/
theorem sB1 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : ¬cond0_0 i) (hc1 : ¬cond0_1 i) (x0 : Vec F S1x1024x256 .f32) (x1 : Vec F S1x1024x1024 .f32) (x2 : Vec F S1024x1024 .bf16) (x3 : Vec F S1x1024 .f32) (xo5 : Vec F S1x1024x1024 .f32) (xs0 : Vec F S1024x1024 .bf16) (xs1 : Vec F S1x1024 .f32) :
    sout0_B_1 c i arg2 harg2 arg3 harg3 arg4 harg4 arg5 harg5 arg6 harg6 arg7 harg7 arg8 harg8 arg9 harg9 arg10 harg10 hc0 hc1 x0 x1 x2 x3 xo5 xs0 xs1 = k0_pay1 (k0_pay14 x2 x3 x0 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xo5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3]

/-- The Pr block: what it held plus this tile's weighted paper rows. -/
theorem oB5 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : ¬cond0_0 i) (hc1 : ¬cond0_1 i) (x0 : Vec F S1x1024x256 .f32) (x1 : Vec F S1x1024x1024 .f32) (x2 : Vec F S1024x1024 .bf16) (x3 : Vec F S1x1024 .f32) (xo5 : Vec F S1x1024x1024 .f32) (xs0 : Vec F S1024x1024 .bf16) (xs1 : Vec F S1x1024 .f32) :
    out0_B_5 c i arg2 harg2 arg3 harg3 arg4 harg4 arg5 harg5 arg6 harg6 arg7 harg7 arg8 harg8 arg9 harg9 arg10 harg10 hc0 hc1 x0 x1 x2 x3 xo5 xs0 xs1 = k0_pay2 (k0_pay12 x0) (k0_pay13 x2 x3 x0 xs0) xo5 := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 x3 xo5 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3]

/-! ## The last tile -/

theorem sC1 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : ¬cond0_0 i) (hc1 : cond0_1 i) (x0 : Vec F S1x1024x256 .f32) (x1 : Vec F S1x1024x1024 .f32) (x2 : Vec F S1024x1024 .bf16) (x3 : Vec F S1x1024 .f32) (xo5 : Vec F S1x1024x1024 .f32) (xs0 : Vec F S1024x1024 .bf16) (xs1 : Vec F S1x1024 .f32) :
    sout0_C_1 c i arg2 harg2 arg3 harg3 arg4 harg4 arg5 harg5 arg6 harg6 arg7 harg7 arg8 harg8 arg9 harg9 arg10 harg10 hc0 hc1 x0 x1 x2 x3 xo5 xs0 xs1 = k0_pay1 (k0_pay14 x2 x3 x0 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xo5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3]

theorem oC5 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : ¬cond0_0 i) (hc1 : cond0_1 i) (x0 : Vec F S1x1024x256 .f32) (x1 : Vec F S1x1024x1024 .f32) (x2 : Vec F S1024x1024 .bf16) (x3 : Vec F S1x1024 .f32) (xo5 : Vec F S1x1024x1024 .f32) (xs0 : Vec F S1024x1024 .bf16) (xs1 : Vec F S1x1024 .f32) :
    out0_C_5 c i arg2 harg2 arg3 harg3 arg4 harg4 arg5 harg5 arg6 harg6 arg7 harg7 arg8 harg8 arg9 harg9 arg10 harg10 hc0 hc1 x0 x1 x2 x3 xo5 xs0 xs1 = k0_pay2 (k0_pay12 x0) (k0_pay13 x2 x3 x0 xs0) xo5 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xo5 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3]

/-- The Rp block: the review block times the column sums as just completed. -/
theorem oC4 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : ¬cond0_0 i) (hc1 : cond0_1 i) (x0 : Vec F S1x1024x256 .f32) (x1 : Vec F S1x1024x1024 .f32) (x2 : Vec F S1024x1024 .bf16) (x3 : Vec F S1x1024 .f32) (xo5 : Vec F S1x1024x1024 .f32) (xs0 : Vec F S1024x1024 .bf16) (xs1 : Vec F S1x1024 .f32) :
    out0_C_4 c i arg2 harg2 arg3 harg3 arg4 harg4 arg5 harg5 arg6 harg6 arg7 harg7 arg8 harg8 arg9 harg9 arg10 harg10 hc0 hc1 x0 x1 x2 x3 xo5 xs0 xs1 = k0_pay3 (k0_pay1 (k0_pay14 x2 x3 x0 xs0 xs1)) x1 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xo5 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3, View.readCov_unit_zero (S := S1024x1024) _ hz2, View.readCov_unit_zero (S := S1x1024) _ hz2, View.readCov_unit_zero (S := S1x1024x1024) _ hz3]

/-- Three [1, 1024, 1024] blocks one under the other along the middle axis. -/
def stack3 (A B C : Vec F S1x1024x1024 .f32) : Vec F S1x3072x1024 .f32 := fun y =>
  if h : (y 1).val < 1024 then A (ix3 (0 : Fin 1) (⟨(y 1).val, h⟩ : Fin 1024) (⟨(y 2).val, (y 2).isLt⟩ : Fin 1024))
  else if h2 : (y 1).val < 2048 then
    B (ix3 (0 : Fin 1) (⟨(y 1).val - 1024, by omega⟩ : Fin 1024) (⟨(y 2).val, (y 2).isLt⟩ : Fin 1024))
  else C (ix3 (0 : Fin 1) (⟨(y 1).val - 2048, by have h3 : (y 1).val < 3072 := (y 1).isLt; omega⟩ : Fin 1024) (⟨(y 2).val, (y 2).isLt⟩ : Fin 1024))

end Cert.KernelIdeal.Pieces

end
-- ==== Proof.Comp.lean ====
/-
  What the buffers hold after a point, component by component, as the body's pure terms of the point's
  blocks and of what the point before left: the generated per-point contents opened at each of the three cases.
-/
import proofs.«155025_j15642270892415_2_alg».proof.Proof.Pieces

noncomputable section

open Idealize.ShloMosaic Idealize.ShloMosaic.TcCoe Idealize.SL.Sem Idealize.ShloMosaic.ValueIdx

namespace Cert.KernelIdeal.Comp

open Cert.KernelIdeal Cert.KernelIdeal.Gen Cert.KernelIdeal.Pieces

variable {F : FTy → Type} [FloatOps F]
variable (m : (ℓ : Loc nD τ sig) → Buf (Elt F) ℓ)

/-- First tile of a batch member: the ReLU-linear image of the review, the first column sums, the first weighted rows. -/
theorem first (c : Dev nD) (t : Fin cfg0.N) (h0 : t.val % 4 = 0) (h1 : ¬t.val % 4 = 3) :
    (outsAt0 m c t.val t.isLt).2.2.2.1 = k0_pay9 (iblk m c 2 t) (iblk m c 3 t) (iblk m c 1 t)
    ∧ (outsAt0 m c t.val t.isLt).2.2.2.2
        = k0_pay1 (k0_pay14 (iblk m c 2 t) (iblk m c 3 t) (iblk m c 0 t) (k0_pay9 (iblk m c 2 t) (iblk m c 3 t) (iblk m c 1 t)) k0_pay10)
    ∧ (outsAt0 m c t.val t.isLt).2.1
        = k0_pay2 (k0_pay12 (iblk m c 0 t)) (k0_pay13 (iblk m c 2 t) (iblk m c 3 t) (iblk m c 0 t) (k0_pay9 (iblk m c 2 t) (iblk m c 3 t) (iblk m c 1 t))) k0_pay11 := by
  have a0 := sA0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
  have a1 := sA1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
  have a5 := oA5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
  rw [outsAt0_A m c t h0 h1]
  dsimp only
  exact ⟨a0, a1, a5⟩

/-- A middle tile: the image kept, the column sums and the weighted rows advanced by this tile's share. -/
theorem middle (c : Dev nD) (t : Fin cfg0.N) (h0 : ¬t.val % 4 = 0) (h1 : ¬t.val % 4 = 3) :
    (outsAt0 m c t.val t.isLt).2.2.2.1 = (outsAt0 m c (t.val - 1) (Nat.lt_of_le_of_lt (Nat.sub_le _ _) t.isLt)).2.2.2.1
    ∧ (outsAt0 m c t.val t.isLt).2.2.2.2
        = k0_pay1 (k0_pay14 (iblk m c 2 t) (iblk m c 3 t) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)
    ∧ (outsAt0 m c t.val t.isLt).2.1
        = k0_pay2 (k0_pay12 (iblk m c 0 t)) (k0_pay13 (iblk m c 2 t) (iblk m c 3 t) (iblk m c 0 t) (outsAt0 m c (t.val - 1) (Nat.lt_of_le_of_lt (Nat.sub_le _ _) t.isLt)).2.2.2.1) (outsAt0 m c (t.val - 1) (Nat.lt_of_le_of_lt (Nat.sub_le _ _) t.isLt)).2.1 := by
  have a1 := sB1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  have a5 := oB5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [outsAt0_B m c t h0 h1]
  dsimp only
  exact ⟨rfl, a1, a5⟩

/-- The last tile: the same advance, then Rp from the completed column sums. -/
theorem last (c : Dev nD) (t : Fin cfg0.N) (h0 : ¬t.val % 4 = 0) (h1 : t.val % 4 = 3) :
    (outsAt0 m c t.val t.isLt).2.2.2.1 = (outsAt0 m c (t.val - 1) (Nat.lt_of_le_of_lt (Nat.sub_le _ _) t.isLt)).2.2.2.1
    ∧ (outsAt0 m c t.val t.isLt).2.2.2.2
        = k0_pay1 (k0_pay14 (iblk m c 2 t) (iblk m c 3 t) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)
    ∧ (outsAt0 m c t.val t.isLt).2.1
        = k0_pay2 (k0_pay12 (iblk m c 0 t)) (k0_pay13 (iblk m c 2 t) (iblk m c 3 t) (iblk m c 0 t) (outsAt0 m c (t.val - 1) (Nat.lt_of_le_of_lt (Nat.sub_le _ _) t.isLt)).2.2.2.1) (outsAt0 m c (t.val - 1) (Nat.lt_of_le_of_lt (Nat.sub_le _ _) t.isLt)).2.1
    ∧ (outsAt0 m c t.val t.isLt).1
        = k0_pay3 (k0_pay1 (k0_pay14 (iblk m c 2 t) (iblk m c 3 t) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)) (iblk m c 1 t) := by
  have a1 := sC1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  have a5 := oC5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  have a4 := oC4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [outsAt0_C m c t h0 h1]
  dsimp only
  exact ⟨rfl, a1, a5, a4⟩

end Cert.KernelIdeal.Comp

end
-- ==== Proof.Blocks.lean ====
/-
  Where the windows' blocks sit in their arrays, and what the host operations before the region leave.

  The grid's point number n stands for batch member n / 4 and paper tile n % 4. At that point
    - the paper window's block is paper[b, :, 256·t … 256·t + 255]   (feature rows, the tile's 256 columns),
    - the review window's block is the transposed review of batch member b, whole,
    - the weights' and the bias row's blocks are their arrays, whole,
    - each output window's block is batch member b's slab of its array.
  The host operations before the region transpose the review (axes 1 and 2), change the weights' float format
  (the identity on exact values) and view the bias vector as one row.
-/
import proofs.«155025_j15642270892415_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Idealize.ShloMosaic.StableHlo

variable {F : FTy → Type} [FloatOps F]
variable (m : (ℓ : Loc nD τ sig) → Buf (Elt F) ℓ)

/-- The printed index maps, decided over the grid's 128 points. -/
theorem idx_in : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem idx_out : ∀ t : Fin cfg0.N,
    win0_4.index t (0 : Fin 3) = t.val / 4 ∧ win0_4.index t (1 : Fin 3) = 0 ∧ win0_4.index t (2 : Fin 3) = 0
    ∧ win0_5.index t (0 : Fin 3) = t.val / 4 ∧ win0_5.index t (1 : Fin 3) = 0 ∧ win0_5.index t (2 : Fin 3) = 0
    ∧ win0_6.index t (0 : Fin 3) = t.val / 4 ∧ win0_6.index t (1 : Fin 3) = 0 ∧ win0_6.index t (2 : Fin 3) = 0 :=
  (by decide +kernel : ∀ t : Fin grid0.N, _)

/-- The batch member of a point. -/
def bOf (t : Fin cfg0.N) : Fin 32 := ⟨t.val / 4, by have h := t.isLt; have hN : cfg0.N = 128 := N_0; omega⟩

/-- Column `jj` of the paper tile at a point, as a column of the paper. -/
def colOf (t : Fin cfg0.N) (jj : Fin 256) : Fin 1024 := ⟨256 * (t.val % 4) + jj.val, by have := jj.isLt; omega⟩

/-- The paper tile at a point. -/
theorem blk0 (c : Dev nD) (t : Fin cfg0.N) (d : Fin 1024) (jj : Fin 256) :
    iblk m c 0 t (ix3 (0 : Fin 1) d jj) = V m c main_arg0 (ix3 (bOf t) d (colOf t jj)) := by
  show V m c main_arg0 (((cfg0.win 0).blk t).view.emb (ix3 (0 : Fin 1) d jj)) = _
  obtain ⟨e0, e1, e2, -⟩ := idx_in t
  refine congrArg _ (funext fun a => Fin.ext ?_)
  match a with
  | ⟨0, _⟩ => show win0_0.index t (0 : Fin 3) * 1 + 1 * 0 = t.val / 4; omega
  | ⟨1, _⟩ => show win0_0.index t (1 : Fin 3) * 1024 + 1 * d.val = d.val; omega
  | ⟨2, _⟩ => show win0_0.index t (2 : Fin 3) * 256 + 1 * jj.val = 256 * (t.val % 4) + jj.val; omega

/-- The transposed review block at a point. -/
theorem blk1 (c : Dev nD) (t : Fin cfg0.N) (i d : Fin 1024) :
    iblk m c 1 t (ix3 (0 : Fin 1) i d) = V m c main_v0 (ix3 (bOf t) i d) := by
  show V m c main_v0 (((cfg0.win 1).blk t).view.emb (ix3 (0 : Fin 1) i d)) = _
  obtain ⟨-, -, -, e0, e1, e2, -⟩ := idx_in t
  refine congrArg _ (funext fun a => Fin.ext ?_)
  match a with
  | ⟨0, _⟩ => show win0_1.index t (0 : Fin 3) * 1 + 1 * 0 = t.val / 4; omega
  | ⟨1, _⟩ => show win0_1.index t (1 : Fin 3) * 1024 + 1 * i.val = i.val; omega
  | ⟨2, _⟩ => show win0_1.index t (2 : Fin 3) * 1024 + 1 * d.val = d.val; omega

/-- The weights' block is the weights. -/
theorem blk2 (c : Dev nD) (t : Fin cfg0.N) (o d : Fin 1024) :
    iblk m c 2 t (ix2 o d) = V m c main_v1 (ix2 o d) := by
  show V m c main_v1 (((cfg0.win 2).blk t).view.emb (ix2 o d)) = _
  obtain ⟨-, -, -, -, -, -, e0, e1, -⟩ := idx_in t
  refine congrArg _ (funext fun a => Fin.ext ?_)
  match a with
  | ⟨0, _⟩ => show win0_2.index t (0 : Fin 2) * 1024 + 1 * o.val = o.val; omega
  | ⟨1, _⟩ => show win0_2.index t (1 : Fin 2) * 1024 + 1 * d.val = d.val; omega

/-- The bias row's block is the bias row. -/
theorem blk3 (c : Dev nD) (t : Fin cfg0.N) (o : Fin 1024) :
    iblk m c 3 t (ix2 (0 : Fin 1) o) = V m c main_v2 (ix2 (0 : Fin 1) o) := by
  show V m c main_v2 (((cfg0.win 3).blk t).view.emb (ix2 (0 : Fin 1) o)) = _
  obtain ⟨-, -, -, -, -, -, -, -, e0, e1⟩ := idx_in t
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * o.val = o.val; omega

end Cert.KernelIdeal.Blocks

end
-- ==== Proof.HostPrefix.lean ====
/-
  What the region finds in the three buffers the host operations wrote before it, read at an index:
  the review with its last two axes exchanged, the weights unchanged (a change of float format is the identity
  on exact values), and the bias vector viewed as one row.
-/
import proofs.«155025_j15642270892415_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.HostPrefix

open Cert.KernelIdeal Cert.KernelIdeal.Gen Idealize.ShloMosaic.StableHlo

variable (m : (ℓ : Loc nD τ sig) → Buf (Elt Ideal) ℓ)

theorem V_v0 (c : Dev nD) : (V m c main_v0 : S32x1024x1024.Idx → Elt Ideal .f32)
    = transpose S32x1024x1024 [0, 2, 1] (m ((c : Thread nD τ).loc main_arg1)) transposes_S32x1024x1024_S32x1024x1024_0_2_1 := by
  dsimp only [Gen.V, Gen.hostOps0]; after_results <;> rfl

theorem V_v1 (c : Dev nD) : V m c main_v1
    = (truncf (F := Ideal) .bf16 (m ((c : Thread nD τ).loc main_arg2) : FVec Ideal S1024x1024 .f32) bitsLt_bf16_f32 : FVec Ideal S1024x1024 .bf16) := by
  dsimp only [Gen.V, Gen.hostOps0]; after_results <;> rfl

theorem V_v2 (c : Dev nD) : (V m c main_v2 : S1x1024.Idx → Elt Ideal .f32)
    = shapeCast S1x1024 (m ((c : Thread nD τ).loc main_arg3)) shapeCasts_S1024_S1x1024 := by
  dsimp only [Gen.V, Gen.hostOps0]; after_results <;> rfl

/-- The transposed review at (b, i, d) is the review at (b, d, i). -/
theorem V_v0_apply (c : Dev nD) (b : Fin 32) (i d : Fin 1024) :
    V m c main_v0 (ix3 b i d) = m ((c : Thread nD τ).loc main_arg1) (ix3 b d i) := by
  rw [V_v0]
  exact transpose_ix3_021_apply (m ((c : Thread nD τ).loc main_arg1)) transposes_S32x1024x1024_S32x1024x1024_0_2_1 b i d

/-- The weights the region finds are the weights. -/
theorem V_v1_apply (c : Dev nD) (o d : Fin 1024) :
    V m c main_v1 (ix2 o d) = m ((c : Thread nD τ).loc main_arg2) (ix2 o d) := by
  rw [V_v1]; rfl

/-- The bias row at (0, o) is the bias at o. -/
theorem V_v2_apply (c : Dev nD) (o : Fin 1024) :
    V m c main_v2 (ix2 (0 : Fin 1) o) = m ((c : Thread nD τ).loc main_arg3) (ix1 o) := by
  rw [V_v2]
  exact shapeCast_a_1a_apply (m ((c : Thread nD τ).loc main_arg3)) shapeCasts_S1024_S1x1024 0 o

end Cert.KernelIdeal.HostPrefix

end
-- ==== Proof.PayLayout.lean ====
/-
  The non-pointwise operations of the kernel body, each read at an index given by literal coordinates, over the
  extended reals (exact operations, format changes the identity).

  • A vector `[a]` viewed as a column `[a, 1]`, and a column `[a, 1]` repeated along a row `[a, b]`: element
    `(p, c)` of the result is element `p` of the operand.
  • The four matrix products into the zero matrix. Each contracts one axis of each operand; element `(a, b)` of the
    result is the sum over the contracted coordinate `k` of the product of the left operand at (`a`, `k`) and the
    right operand at (`b`, `k`), each pair written in the order of that operand's axes: the sum over the abstract
    one-axis contraction index is re-indexed through its single coordinate.
  • The reductions of a `[256, 1024]` array: along a row its maximum (a fold of `max` from the starting value) and
    its sum, along a column its sum; the reduced index with coordinate `k` inserted is `(jj, k)`, resp. `(k, i)`.
  • The softmax of each row as the body computes it: row maximum, shifted exponential, row sum, quotient; read at
    `(jj, i)` it is `Cert.Spec.soft` of the array at `(jj, i)`, since each step reads as the corresponding
    definition of the specification (`colMax`, `ex`, `colZ`).
-/
import proofs.«155025_j15642270892415_2_alg».proof.Proof.Gen.KernelIdeal.Skeleton
import proofs.«155025_j15642270892415_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

variable {α : Type}

/-! ## Column forms: a unit trailing axis added, and broadcast along it -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The four matrix products into the zero constant, read at an index -/

theorem mmW_lhs_n (j : S1024x1024.Idx) (q : dot_S1024x1024_S1024x1024_S1024x1024_1_1_0_0_n_n.contr.Idx) : (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem mmW_lhs_c (j : S1024x1024.Idx) (q : dot_S1024x1024_S1024x1024_S1024x1024_1_1_0_0_n_n.contr.Idx) : (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem mmW_rhs_n (j : S1024x1024.Idx) (q : dot_S1024x1024_S1024x1024_S1024x1024_1_1_0_0_n_n.contr.Idx) : (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem mmW_rhs_c (j : S1024x1024.Idx) (q : dot_S1024x1024_S1024x1024_S1024x1024_1_1_0_0_n_n.contr.Idx) : (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Both operands contracted on their second axis: `out (a, b) = ∑ k, L (a, k) · R (b, k)`. -/
theorem mmW_apply (L : FVec Ideal S1024x1024 .bf16) (R : FVec Ideal S1024x1024 .bf16) (a : Fin 1024) (b : Fin 1024) :
    matmul dot_S1024x1024_S1024x1024_S1024x1024_1_1_0_0_n_n none L R (constant S1024x1024 .f32 0x00000000#32) (ix2 a b)
      = ∑ k : Fin 1024, L (ix2 a k) * R (ix2 b k) := by
  refine (Ideal.matmul_constant_zero_apply dot_S1024x1024_S1024x1024_S1024x1024_1_1_0_0_n_n none L R (ix2 a b)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 a b) ((contrEquiv1 dot_S1024x1024_S1024x1024_S1024x1024_1_1_0_0_n_n 1024 rfl rfl).symm k) = ix2 a k := funext fun ax => Fin.ext (by
    match ax with
    | ⟨0, _⟩ => exact mmW_lhs_n _ _
    | ⟨1, _⟩ => exact (mmW_lhs_c _ _).trans hk)
  have er : dot_S1024x1024_S1024x1024_S1024x1024_1_1_0_0_n_n.rhsIdx (ix2 a b) ((contrEquiv1 dot_S1024x1024_S1024x1024_S1024x1024_1_1_0_0_n_n 1024 rfl rfl).symm k) = ix2 b k := funext fun ax => Fin.ext (by
    match ax with
    | ⟨0, _⟩ => exact mmW_rhs_n _ _
    | ⟨1, _⟩ => exact (mmW_rhs_c _ _).trans hk)
  rw [el, er]

theorem mmP_lhs_n (j : S1024x256.Idx) (q : dot_S1024x1024_S1024x256_S1024x256_1_0_0_1_n_n.contr.Idx) : (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem mmP_lhs_c (j : S1024x256.Idx) (q : dot_S1024x1024_S1024x256_S1024x256_1_0_0_1_n_n.contr.Idx) : (dot_S1024x1024_S1024x256_S1024x256_1_0_0_1_n_n.lhsIdx j q 1).val = (q ⟨0, by decide⟩).val :=
  dot_S1024x1024_S1024x256_S1024x256_1_0_0_1_n_n.lhsIdx_val_of_single rfl j q
theorem mmP_rhs_n (j : S1024x256.Idx) (q : dot_S1024x1024_S1024x256_S1024x256_1_0_0_1_n_n.contr.Idx) : (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
theorem mmP_rhs_c (j : S1024x256.Idx) (q : dot_S1024x1024_S1024x256_S1024x256_1_0_0_1_n_n.contr.Idx) : (dot_S1024x1024_S1024x256_S1024x256_1_0_0_1_n_n.rhsIdx j q 0).val = (q ⟨0, by decide⟩).val :=
  dot_S1024x1024_S1024x256_S1024x256_1_0_0_1_n_n.rhsIdx_val_of_single rfl j q

/-- The plain product: `out (a, b) = ∑ k, L (a, k) · R (k, b)`. -/
theorem mmP_apply (L : FVec Ideal S1024x1024 .bf16) (R : FVec Ideal S1024x256 .bf16) (a : Fin 1024) (b : Fin 256) :
    matmul dot_S1024x1024_S1024x256_S1024x256_1_0_0_1_n_n none L R (constant S1024x256 .f32 0x00000000#32) (ix2 a b)
      = ∑ k : Fin 1024, L (ix2 a k) * R (ix2 k b) := by
  refine (Ideal.matmul_constant_zero_apply dot_S1024x1024_S1024x256_S1024x256_1_0_0_1_n_n none L R (ix2 a b)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 a b) ((contrEquiv1 dot_S1024x1024_S1024x256_S1024x256_1_0_0_1_n_n 1024 rfl rfl).symm k) = ix2 a k := funext fun ax => Fin.ext (by
    match ax with
    | ⟨0, _⟩ => exact mmP_lhs_n _ _
    | ⟨1, _⟩ => exact (mmP_lhs_c _ _).trans hk)
  have er : dot_S1024x1024_S1024x256_S1024x256_1_0_0_1_n_n.rhsIdx (ix2 a b) ((contrEquiv1 dot_S1024x1024_S1024x256_S1024x256_1_0_0_1_n_n 1024 rfl rfl).symm k) = ix2 k b := funext fun ax => Fin.ext (by
    match ax with
    | ⟨0, _⟩ => exact (mmP_rhs_c _ _).trans hk
    | ⟨1, _⟩ => exact mmP_rhs_n _ _)
  rw [el, er]

theorem mmA_lhs_n (j : S256x1024.Idx) (q : dot_S1024x256_S1024x1024_S256x1024_0_1_1_0_n_n.contr.Idx) : (dot_S1024x256_S1024x1024_S256x1024_0_1_1_0_n_n.lhsIdx j q 1).val = (j 0).val := by
  unfold DotDims.lhsIdx
  rw [dif_neg (show ¬(1 : Fin S1024x256.rank) ∈ dot_S1024x256_S1024x1024_S256x1024_0_1_1_0_n_n.lhsBatch by decide), dif_pos (show (1 : Fin S1024x256.rank) ∈ dot_S1024x256_S1024x1024_S256x1024_0_1_1_0_n_n.lhsNonContracting by decide)]
  rfl
theorem mmA_lhs_c (j : S256x1024.Idx) (q : dot_S1024x256_S1024x1024_S256x1024_0_1_1_0_n_n.contr.Idx) : (dot_S1024x256_S1024x1024_S256x1024_0_1_1_0_n_n.lhsIdx j q 0).val = (q ⟨0, by decide⟩).val :=
  dot_S1024x256_S1024x1024_S256x1024_0_1_1_0_n_n.lhsIdx_val_of_single rfl j q
theorem mmA_rhs_n (j : S256x1024.Idx) (q : dot_S1024x256_S1024x1024_S256x1024_0_1_1_0_n_n.contr.Idx) : (dot_S1024x256_S1024x1024_S256x1024_0_1_1_0_n_n.rhsIdx j q 0).val = (j 1).val := by
  unfold DotDims.rhsIdx
  rw [dif_neg (show ¬(0 : Fin S1024x1024.rank) ∈ dot_S1024x256_S1024x1024_S256x1024_0_1_1_0_n_n.rhsBatch by decide), dif_pos (show (0 : Fin S1024x1024.rank) ∈ dot_S1024x256_S1024x1024_S256x1024_0_1_1_0_n_n.rhsNonContracting by decide)]
  rfl
theorem mmA_rhs_c (j : S256x1024.Idx) (q : dot_S1024x256_S1024x1024_S256x1024_0_1_1_0_n_n.contr.Idx) : (dot_S1024x256_S1024x1024_S256x1024_0_1_1_0_n_n.rhsIdx j q 1).val = (q ⟨0, by decide⟩).val :=
  dot_S1024x256_S1024x1024_S256x1024_0_1_1_0_n_n.rhsIdx_val_of_single rfl j q

/-- The left operand contracted on its first axis, the right on its second: `out (a, b) = ∑ k, L (k, a) · R (b, k)`. -/
theorem mmA_apply (L : FVec Ideal S1024x256 .bf16) (R : FVec Ideal S1024x1024 .bf16) (a : Fin 256) (b : Fin 1024) :
    matmul dot_S1024x256_S1024x1024_S256x1024_0_1_1_0_n_n none L R (constant S256x1024 .f32 0x00000000#32) (ix2 a b)
      = ∑ k : Fin 1024, L (ix2 k a) * R (ix2 b k) := by
  refine (Ideal.matmul_constant_zero_apply dot_S1024x256_S1024x1024_S256x1024_0_1_1_0_n_n none L R (ix2 a b)).trans ?_
  rw [← Equiv.sum_comp (contrEquiv1 dot_S1024x256_S1024x1024_S256x1024_0_1_1_0_n_n 1024 rfl rfl).symm]
  refine Finset.sum_congr rfl fun k _ => ?_
  have hk := contrEquiv1_symm_val dot_S1024x256_S1024x1024_S256x1024_0_1_1_0_n_n 1024 rfl rfl k
  have el : dot_S1024x256_S1024x1024_S256x1024_0_1_1_0_n_n.lhsIdx (ix2 a b) ((contrEquiv1 dot_S1024x256_S1024x1024_S256x1024_0_1_1_0_n_n 1024 rfl rfl).symm k) = ix2 k a := funext fun ax => Fin.ext (by
    match ax with
    | ⟨0, _⟩ => exact (mmA_lhs_c _ _).trans hk
    | ⟨1, _⟩ => exact mmA_lhs_n _ _)
  have er : dot_S1024x256_S1024x1024_S256x1024_0_1_1_0_n_n.rhsIdx (ix2 a b) ((contrEquiv1 dot_S1024x256_S1024x1024_S256x1024_0_1_1_0_n_n 1024 rfl rfl).symm k) = ix2 b k := funext fun ax => Fin.ext (by
    match ax with
    | ⟨0, _⟩ => exact mmA_rhs_n _ _
    | ⟨1, _⟩ => exact (mmA_rhs_c _ _).trans hk)
  rw [el, er]

theorem mmC_lhs_n (j : S1024x1024.Idx) (q : dot_S256x1024_S1024x256_S1024x1024_0_1_1_0_n_n.contr.Idx) : (dot_S256x1024_S1024x256_S1024x1024_0_1_1_0_n_n.lhsIdx j q 1).val = (j 0).val := by
  unfold DotDims.lhsIdx
  rw [dif_neg (show ¬(1 : Fin S256x1024.rank) ∈ dot_S256x1024_S1024x256_S1024x1024_0_1_1_0_n_n.lhsBatch by decide), dif_pos (show (1 : Fin S256x1024.rank) ∈ dot_S256x1024_S1024x256_S1024x1024_0_1_1_0_n_n.lhsNonContracting by decide)]
  rfl
theorem mmC_lhs_c (j : S1024x1024.Idx) (q : dot_S256x1024_S1024x256_S1024x1024_0_1_1_0_n_n.contr.Idx) : (dot_S256x1024_S1024x256_S1024x1024_0_1_1_0_n_n.lhsIdx j q 0).val = (q ⟨0, by decide⟩).val :=
  dot_S256x1024_S1024x256_S1024x1024_0_1_1_0_n_n.lhsIdx_val_of_single rfl j q
theorem mmC_rhs_n (j : S1024x1024.Idx) (q : dot_S256x1024_S1024x256_S1024x1024_0_1_1_0_n_n.contr.Idx) : (dot_S256x1024_S1024x256_S1024x1024_0_1_1_0_n_n.rhsIdx j q 0).val = (j 1).val := by
  unfold DotDims.rhsIdx
  rw [dif_neg (show ¬(0 : Fin S1024x256.rank) ∈ dot_S256x1024_S1024x256_S1024x1024_0_1_1_0_n_n.rhsBatch by decide), dif_pos (show (0 : Fin S1024x256.rank) ∈ dot_S256x1024_S1024x256_S1024x1024_0_1_1_0_n_n.rhsNonContracting by decide)]
  rfl
theorem mmC_rhs_c (j : S1024x1024.Idx) (q : dot_S256x1024_S1024x256_S1024x1024_0_1_1_0_n_n.contr.Idx) : (dot_S256x1024_S1024x256_S1024x1024_0_1_1_0_n_n.rhsIdx j q 1).val = (q ⟨0, by decide⟩).val :=
  dot_S256x1024_S1024x256_S1024x1024_0_1_1_0_n_n.rhsIdx_val_of_single rfl j q

/-- The same pattern at the last product's shapes: `out (a, b) = ∑ k, L (k, a) · R (b, k)`. -/
theorem mmC_apply (L : FVec Ideal S256x1024 .bf16) (R : FVec Ideal S1024x256 .bf16) (a : Fin 1024) (b : Fin 1024) :
    matmul dot_S256x1024_S1024x256_S1024x1024_0_1_1_0_n_n none L R (constant S1024x1024 .f32 0x00000000#32) (ix2 a b)
      = ∑ k : Fin 256, L (ix2 k a) * R (ix2 b k) := by
  refine (Ideal.matmul_constant_zero_apply dot_S256x1024_S1024x256_S1024x1024_0_1_1_0_n_n none L R (ix2 a b)).trans ?_
  rw [← Equiv.sum_comp (contrEquiv1 dot_S256x1024_S1024x256_S1024x1024_0_1_1_0_n_n 256 rfl rfl).symm]
  refine Finset.sum_congr rfl fun k _ => ?_
  have hk := contrEquiv1_symm_val dot_S256x1024_S1024x256_S1024x1024_0_1_1_0_n_n 256 rfl rfl k
  have el : dot_S256x1024_S1024x256_S1024x1024_0_1_1_0_n_n.lhsIdx (ix2 a b) ((contrEquiv1 dot_S256x1024_S1024x256_S1024x1024_0_1_1_0_n_n 256 rfl rfl).symm k) = ix2 k a := funext fun ax => Fin.ext (by
    match ax with
    | ⟨0, _⟩ => exact (mmC_lhs_c _ _).trans hk
    | ⟨1, _⟩ => exact mmC_lhs_n _ _)
  have er : dot_S256x1024_S1024x256_S1024x1024_0_1_1_0_n_n.rhsIdx (ix2 a b) ((contrEquiv1 dot_S256x1024_S1024x256_S1024x1024_0_1_1_0_n_n 256 rfl rfl).symm k) = ix2 b k := funext fun ax => Fin.ext (by
    match ax with
    | ⟨0, _⟩ => exact mmC_rhs_n _ _
    | ⟨1, _⟩ => exact (mmC_rhs_c _ _).trans hk)
  rw [el, er]

/-! ## The lane reductions, read at an index -/

/-- The `maximumf` reduction of a `[256, 1024]` array along its rows, at row `jj`: the fold of `max` over the
    row's 1024 entries, from the accumulator's value. -/
theorem rowMax_apply (v : FVec Ideal S256x1024 .f32) (h : S256x1024.Reduces [1] S256) (hφ : FKind.Formats .f32)
    (hacc : (0xFF800000#32 : BitVec 32) = FKind.maximumf.neutral .f32 hφ) (jj : Fin 256) :
    multiReduction .maximumf [1] S256 v 0xFF800000#32 h hφ hacc (ix1 jj)
      = (Finset.univ : Finset (Fin 1024)).fold max Cert.Spec.ninfK (fun i => v (ix2 jj i)) := by
  refine (Ideal.multiReduction_maximumf_single v _ h hφ hacc (ix1 jj)).trans ?_
  have e : (v ∘ h.lift (ix1 jj)) = fun i : Fin 1024 => v (ix2 jj i) :=
    funext fun k => congrArg v (funext fun c => Fin.ext (by match c with | ⟨0, _⟩ => rfl | ⟨1, _⟩ => rfl))
  rw [e]
  rfl

/-- The `add` reduction of a `[256, 1024]` array along its rows, at row `jj`: the sum of the row's 1024 entries. -/
theorem rowSum_apply (v : FVec Ideal S256x1024 .f32) (h : S256x1024.Reduces [1] S256) (hφ : FKind.Formats .f32)
    (hacc : (0x00000000#32 : BitVec 32) = FKind.add.neutral .f32 hφ) (jj : Fin 256) :
    multiReduction .add [1] S256 v 0x00000000#32 h hφ hacc (ix1 jj) = ∑ i : Fin 1024, v (ix2 jj i) := by
  refine (Ideal.multiReduction_add_single v _ h hφ hacc (ix1 jj)).trans ?_
  exact Finset.sum_congr rfl fun k _ => congrArg v (funext fun c => Fin.ext (by match c with | ⟨0, _⟩ => rfl | ⟨1, _⟩ => rfl))

/-- The `add` reduction of a `[256, 1024]` array along its columns, at column `i`: the sum of the column's 256 entries. -/
theorem colSum_apply (v : FVec Ideal S256x1024 .f32) (h : S256x1024.Reduces [0] S1024) (hφ : FKind.Formats .f32)
    (hacc : (0x00000000#32 : BitVec 32) = FKind.add.neutral .f32 hφ) (i : Fin 1024) :
    multiReduction .add [0] S1024 v 0x00000000#32 h hφ hacc (ix1 i) = ∑ jj : Fin 256, v (ix2 jj i) := by
  refine (Ideal.multiReduction_add_single v _ h hφ hacc (ix1 i)).trans ?_
  exact Finset.sum_congr rfl fun k _ => congrArg v (funext fun c => Fin.ext (by match c with | ⟨0, _⟩ => rfl | ⟨1, _⟩ => rfl))

/-! ## The softmax over a row -/

/-- The row maximum, shaped as a column and broadcast back over the row, read at an index. -/
theorem rowMaxB_apply (a : FVec Ideal S256x1024 .f32) (hr : S256x1024.Reduces [1] S256) (hc : S256.ShapeCasts S256x1)
    (hb : S256x1.Broadcasts S256x1024) (hφ : FKind.Formats .f32)
    (hm : (0xFF800000#32 : BitVec 32) = FKind.maximumf.neutral .f32 hφ) (jj : Fin 256) (i : Fin 1024) :
    broadcastTo S256x1024 (shapeCast S256x1 (multiReduction .maximumf [1] S256 a 0xFF800000#32 hr hφ hm) hc) hb (ix2 jj i)
      = Cert.Spec.colMax (fun jj i => a (ix2 jj i)) Cert.Spec.ninfK jj :=
  (broadcastTo_a1_ab_apply _ hb jj i).trans ((shapeCast_a_a1_apply _ hc jj 0).trans (rowMax_apply a hr hφ hm jj))

/-- The row sum, shaped as a column and broadcast back over the row, read at an index. -/
theorem rowSumB_apply (e : FVec Ideal S256x1024 .f32) (hr : S256x1024.Reduces [1] S256) (hc : S256.ShapeCasts S256x1)
    (hb : S256x1.Broadcasts S256x1024) (hφ : FKind.Formats .f32)
    (hs : (0x00000000#32 : BitVec 32) = FKind.add.neutral .f32 hφ) (jj : Fin 256) (i : Fin 1024) :
    broadcastTo S256x1024 (shapeCast S256x1 (multiReduction .add [1] S256 e 0x00000000#32 hr hφ hs) hc) hb (ix2 jj i)
      = ∑ i' : Fin 1024, e (ix2 jj i') :=
  (broadcastTo_a1_ab_apply _ hb jj i).trans ((shapeCast_a_a1_apply _ hc jj 0).trans (rowSum_apply e hr hφ hs jj))

/-- The shifted exponential of a row, read at an index. -/
theorem rowExp_apply (a : FVec Ideal S256x1024 .f32) (hr : S256x1024.Reduces [1] S256) (hc : S256.ShapeCasts S256x1)
    (hb : S256x1.Broadcasts S256x1024) (hφ : FKind.Formats .f32)
    (hm : (0xFF800000#32 : BitVec 32) = FKind.maximumf.neutral .f32 hφ) (jj : Fin 256) (i : Fin 1024) :
    exp (subf a (broadcastTo S256x1024 (shapeCast S256x1 (multiReduction .maximumf [1] S256 a 0xFF800000#32 hr hφ hm) hc) hb)) (ix2 jj i)
      = Cert.Spec.ex (fun jj i => a (ix2 jj i)) Cert.Spec.ninfK jj i :=
  congrArg (fun m => Ideal.exp (a (ix2 jj i) - m)) (rowMaxB_apply a hr hc hb hφ hm jj i)

/-- The softmax of each row of a `[256, 1024]` array, as the body computes it (row maximum, shifted exponential, row
    sum, quotient), read at an index. -/
theorem softmax_apply (a : FVec Ideal S256x1024 .f32) (hr : S256x1024.Reduces [1] S256) (hc : S256.ShapeCasts S256x1)
    (hb : S256x1.Broadcasts S256x1024) (hφ : FKind.Formats .f32)
    (hm : (0xFF800000#32 : BitVec 32) = FKind.maximumf.neutral .f32 hφ)
    (hs : (0x00000000#32 : BitVec 32) = FKind.add.neutral .f32 hφ) (jj : Fin 256) (i : Fin 1024) :
    divf (exp (subf a (broadcastTo S256x1024 (shapeCast S256x1 (multiReduction .maximumf [1] S256 a 0xFF800000#32 hr hφ hm) hc) hb)))
        (broadcastTo S256x1024 (shapeCast S256x1 (multiReduction .add [1] S256
          (exp (subf a (broadcastTo S256x1024 (shapeCast S256x1 (multiReduction .maximumf [1] S256 a 0xFF800000#32 hr hφ hm) hc) hb)))
          0x00000000#32 hr hφ hs) hc) hb) (ix2 jj i)
      = Cert.Spec.soft (fun jj i => a (ix2 jj i)) Cert.Spec.ninfK jj i := by
  refine (divf_apply _ _ _).trans ?_
  refine congrArg₂ Ideal.div (rowExp_apply a hr hc hb hφ hm jj i) ?_
  refine (rowSumB_apply _ hr hc hb hφ hs jj i).trans ?_
  exact Finset.sum_congr rfl fun i' _ => rowExp_apply a hr hc hb hφ hm jj i'

end Cert.KernelIdeal.Pay

end
-- ==== Proof.Pay.lean ====
/-
  What each pure value of the kernel body is, at an index given by literal coordinates, in terms of the specification's
  functions, over the extended reals.

  The body's values are built from the loaded blocks by pointwise arithmetic, changes of layout (a leading unit axis
  dropped or added, a row turned into a column and repeated), matrix products into zero, and reductions along one axis.
  Reading such a value at an index pushes the index through each operation in turn: a pointwise operation acts on the
  elements at that index, a layout change moves the index, a matrix product becomes the sum over the contracted
  coordinate, a reduction the sum or maximum over the reduced coordinate. What is left is literally the defining
  expression of `Cert.Spec.rlin`, `plin`, `aff`, `soft`: the specification writes its products in the operand
  order of the kernel's matrix products, so no commutation is needed.

    k0_pay9  (i, o)    = rlin i o        = max (∑ d, r i d · W o d + β o) 0
    k0_pay13 (jj, i)   = soft (aff (plin …) xs0 s) −∞ jj i, with plin o jj = max (∑ d, W o d · p d jj + β o) 0
    k0_pay14 (0, i)    = xs1 (0, i) + ∑ jj, k0_pay13 (jj, i)
    k0_pay2  (0, i, d) = xo5 (0, i, d) + ∑ jj, cw (jj, i) · p d jj
    k0_pay3  (0, i, d) = v50 (0, i, d) · v48 (0, i)
    k0_pay1, k0_pay4, k0_pay5, k0_pay6 are their argument, k0_pay10 and k0_pay11 are zero.
-/
import proofs.«155025_j15642270892415_2_alg».proof.Proof.Gen.KernelIdeal.Skeleton
import proofs.«155025_j15642270892415_2_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«155025_j15642270892415_2_alg».proof.Proof.PayLayout

noncomputable section

namespace Cert.KernelIdeal.Pay

open Cert.KernelIdeal Cert.KernelIdeal.Gen Idealize.ShloMosaic Idealize.ShloMosaic.ValueIdx

/-! ## The body's payloads, read at an index -/

theorem pay1_eq (v : FVec Ideal S1x1024 .f32) : k0_pay1 (F := Ideal) v = v :=
  shapeCast_self v _

theorem pay4_apply (v : Vec Ideal S1x1024x1024 .f32) (i d : Fin 1024) : k0_pay4 (F := Ideal) v (ix3 0 i d) = v (ix3 0 i d) := by
  unfold k0_pay4
  refine (shapeCast_ab_1ab_apply _ _ 0 i d).trans ?_
  exact shapeCast_1ab_ab_apply v _ i d

theorem pay5_apply (v : Vec Ideal S1x1024x1024 .f32) (i d : Fin 1024) : k0_pay5 (F := Ideal) v (ix3 0 i d) = v (ix3 0 i d) := by
  unfold k0_pay5
  refine (shapeCast_ab_1ab_apply _ _ 0 i d).trans ?_
  exact shapeCast_1ab_ab_apply v _ i d

theorem pay6_apply (v : Vec Ideal S1x1024x1024 .f32) (i d : Fin 1024) : k0_pay6 (F := Ideal) v (ix3 0 i d) = v (ix3 0 i d) := by
  unfold k0_pay6
  refine (shapeCast_ab_1ab_apply _ _ 0 i d).trans ?_
  exact shapeCast_1ab_ab_apply v _ i d

theorem pay10_apply (i : Fin 1024) : k0_pay10 (F := Ideal) (ix2 0 i) = 0 := by
  unfold k0_pay10
  refine (congrFun (shapeCast_self _ _) (ix2 0 i)).trans ?_
  exact Ideal.ofBits_zero_f32

theorem pay11_apply (i d : Fin 1024) : k0_pay11 (F := Ideal) (ix3 0 i d) = 0 := by
  unfold k0_pay11
  refine (shapeCast_ab_1ab_apply _ _ 0 i d).trans ?_
  exact Ideal.ofBits_zero_f32

/-- The review rows scaled by the column sums: `v50 (0, i, d) · v48 (0, i)`. -/
theorem pay3_apply (v48 : Vec Ideal S1x1024 .f32) (v50 : Vec Ideal S1x1024x1024 .f32) (i d : Fin 1024) :
    k0_pay3 (F := Ideal) v48 v50 (ix3 0 i d) = v50 (ix3 0 i d) * v48 (ix2 0 i) := by
  unfold k0_pay3
  refine (shapeCast_ab_1ab_apply _ _ 0 i d).trans ?_
  refine (mulf_apply _ _ _).trans ?_
  refine congrArg₂ (· * ·) (shapeCast_1ab_ab_apply v50 _ i d) ?_
  refine (broadcastTo_a1_ab_apply _ _ i d).trans ?_
  exact transpose_ix2_apply v48 _ i 0

/-- The review's ReLU-linear image. -/
theorem pay9_apply (x2 : Vec Ideal S1024x1024 .bf16) (x3 : Vec Ideal S1x1024 .f32) (x1 : Vec Ideal S1x1024x1024 .f32) (i o : Fin 1024) :
    k0_pay9 (F := Ideal) x2 x3 x1 (ix2 i o)
      = Cert.Spec.rlin (fun i d => x1 (ix3 0 i d)) (fun o d => x2 (ix2 o d)) (fun o => x3 (ix2 0 o)) i o := by
  show _ = max (∑ d : Fin 1024, x1 (ix3 0 i d) * x2 (ix2 o d) + x3 (ix2 0 o)) 0
  unfold k0_pay9
  refine (congrFun (shapeCast_self _ _) (ix2 i o)).trans ?_
  refine (truncf_apply (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ ?_
  · refine (mmW_apply _ _ i o).trans ?_
    refine Finset.sum_congr rfl fun d _ => ?_
    refine congrArg₂ (· * ·) ?_ ?_
    · refine (truncf_apply (ψ := .bf16) _ bitsLt_bf16_f32 _).trans ?_
      exact shapeCast_1ab_ab_apply x1 _ i d
    · unfold k0_pay7
      exact congrFun (shapeCast_self _ _) (ix2 o d)
  · refine (broadcastTo_1b_ab_apply _ _ i o).trans ?_
    unfold k0_pay8
    exact congrFun (shapeCast_self _ _) (ix2 0 o)

/-- The running `Pr` block plus this tile's weighted sum of paper columns. -/
theorem pay2_apply (x0 : Vec Ideal S1x1024x256 .f32) (cw : FVec Ideal S256x1024 .f32) (xo5 : Vec Ideal S1x1024x1024 .f32) (i d : Fin 1024) :
    k0_pay2 (F := Ideal) (k0_pay12 x0) cw xo5 (ix3 0 i d) = xo5 (ix3 0 i d) + ∑ jj : Fin 256, cw (ix2 jj i) * x0 (ix3 0 d jj) := by
  unfold k0_pay2
  refine (shapeCast_ab_1ab_apply _ _ 0 i d).trans ?_
  refine (addf_apply _ _ _).trans ?_
  refine congrArg₂ (· + ·) (shapeCast_1ab_ab_apply xo5 _ i d) ?_
  refine (mmC_apply _ _ i d).trans ?_
  refine Finset.sum_congr rfl fun jj _ => ?_
  refine congrArg₂ (· * ·) (truncf_apply (ψ := .bf16) _ bitsLt_bf16_f32 _) ?_
  unfold k0_pay12
  refine (truncf_apply (ψ := .bf16) _ bitsLt_bf16_f32 _).trans ?_
  exact shapeCast_1ab_ab_apply x0 _ d jj

/-- The tile's attention weights: the softmax over the review positions of the scaled affinity. -/
theorem pay13_apply (x2 : Vec Ideal S1024x1024 .bf16) (x3 : Vec Ideal S1x1024 .f32) (x0 : Vec Ideal S1x1024x256 .f32)
    (xs0 : Vec Ideal S1024x1024 .bf16) (jj : Fin 256) (i : Fin 1024) :
    k0_pay13 (F := Ideal) x2 x3 x0 xs0 (ix2 jj i)
      = Cert.Spec.soft (Cert.Spec.aff (Cert.Spec.plin (fun d jj => x0 (ix3 0 d jj)) (fun o d => x2 (ix2 o d)) (fun o => x3 (ix2 0 o)))
          (fun i o => xs0 (ix2 i o)) Cert.Spec.sK) Cert.Spec.ninfK jj i := by
  unfold k0_pay13
  refine (softmax_apply _ _ _ _ _ _ _ jj i).trans ?_
  refine congrArg (fun a => Cert.Spec.soft a Cert.Spec.ninfK jj i) (funext fun jj' => funext fun i' => ?_)
  show _ = (∑ o : Fin 1024, max (∑ d : Fin 1024, x2 (ix2 o d) * x0 (ix3 0 d jj') + x3 (ix2 0 o)) 0 * xs0 (ix2 i' o)) * Cert.Spec.sK
  refine (mulf_apply _ _ _).trans ?_
  refine congrArg (· * Cert.Spec.sK) ?_
  refine (mmA_apply _ _ jj' i').trans ?_
  refine Finset.sum_congr rfl fun o _ => ?_
  refine congrArg (· * xs0 (ix2 i' o)) ?_
  refine (truncf_apply (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ ?_
  · refine (mmP_apply _ _ o jj').trans ?_
    refine Finset.sum_congr rfl fun d _ => ?_
    refine congrArg₂ (· * ·) ?_ ?_
    · unfold k0_pay7
      exact congrFun (shapeCast_self _ _) (ix2 o d)
    · unfold k0_pay12
      refine (truncf_apply (ψ := .bf16) _ bitsLt_bf16_f32 _).trans ?_
      exact shapeCast_1ab_ab_apply x0 _ d jj'
  · refine (broadcastTo_a1_ab_apply _ _ o jj').trans ?_
    refine (transpose_ix2_apply _ _ o 0).trans ?_
    unfold k0_pay8
    exact congrFun (shapeCast_self _ _) (ix2 0 o)

/-- The column sums' accumulator plus this tile's sum of weights. -/
theorem pay14_apply (x2 : Vec Ideal S1024x1024 .bf16) (x3 : Vec Ideal S1x1024 .f32) (x0 : Vec Ideal S1x1024x256 .f32)
    (xs0 : Vec Ideal S1024x1024 .bf16) (xs1 : Vec Ideal S1x1024 .f32) (i : Fin 1024) :
    k0_pay14 (F := Ideal) x2 x3 x0 xs0 xs1 (ix2 0 i)
      = xs1 (ix2 0 i) + ∑ jj : Fin 256, k0_pay13 (F := Ideal) x2 x3 x0 xs0 (ix2 jj i) := by
  unfold k0_pay14
  refine (addf_apply _ _ _).trans ?_
  refine congrArg (xs1 (ix2 0 i) + ·) ?_
  refine (shapeCast_a_1a_apply _ _ 0 i).trans ?_
  exact colSum_apply _ _ _ _ i

end Cert.KernelIdeal.Pay

end
-- ==== Proof.Inv.lean ====
/-
  The invariant of the run over the grid, on the exact values.

  After the point number n (batch member b = n / 4, paper tile n % 4):
    - the first scratch holds the review's ReLU-linear image of batch member b,
    - the column-sum scratch holds, at review position i, the attention weights of the columns of tiles 0 … n % 4
      on i, accumulated from zero tile by tile,
    - the Pr block holds, at (i, d), the same weights times the paper's entries (d, column), accumulated the same way.
  A tile's weights are the weights of those paper columns: the softmax runs over the review positions, one column
  at a time, so a tile of columns is computed exactly as it is inside the whole. By induction on the point; the
  first tile of a batch member starts the three afresh, every other tile adds its share to what the point before left.
-/
import proofs.«155025_j15642270892415_2_alg».proof.Proof.Comp
import proofs.«155025_j15642270892415_2_alg».proof.Proof.Blocks
import proofs.«155025_j15642270892415_2_alg».proof.Proof.HostPrefix
import proofs.«155025_j15642270892415_2_alg».proof.Proof.Pay
import proofs.«155025_j15642270892415_2_alg».proof.Proof.Spec

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Blocks Cert.KernelIdeal.HostPrefix Cert.KernelIdeal.Pay

variable (m : (ℓ : Loc nD τ sig) → Buf (Elt Ideal) ℓ) (c : Dev nD)

/-- The four arguments as functions of their coordinates. -/
def Pm (b : Fin 32) (d j : Fin 1024) : EReal := m ((c : Thread nD τ).loc main_arg0) (ix3 b d j)
def Rm (b : Fin 32) (d i : Fin 1024) : EReal := m ((c : Thread nD τ).loc main_arg1) (ix3 b d i)
def Wm (o d : Fin 1024) : EReal := m ((c : Thread nD τ).loc main_arg2) (ix2 o d)
def βm (o : Fin 1024) : EReal := m ((c : Thread nD τ).loc main_arg3) (ix1 o)

/-- Batch member b's attention weight of paper column j on review position i. -/
def wt (b : Fin 32) (j i : Fin 1024) : EReal :=
  Cert.Spec.weight (Pm m c) (Rm m c) (Wm m c) (βm m c) Cert.Spec.sK Cert.Spec.ninfK b j i

/-- Tile tt's share of review position i's column sum, and of the weighted paper rows at (i, d). -/
def gCol (b : Fin 32) (i : Fin 1024) (tt : ℕ) : EReal := ∑ jj : Fin 256, wt m c b (Cert.Spec.tcol tt jj) i
def gPr (b : Fin 32) (i d : Fin 1024) (tt : ℕ) : EReal :=
  ∑ jj : Fin 256, wt m c b (Cert.Spec.tcol tt jj) i * Pm m c b d (Cert.Spec.tcol tt jj)

/-! ## The blocks at a point, in the arguments -/

theorem B0 (t : Fin cfg0.N) (d : Fin 1024) (jj : Fin 256) :
    iblk m c 0 t (ix3 (0 : Fin 1) d jj) = Pm m c (bOf t) d (Cert.Spec.tcol (t.val % 4) jj) := by
  rw [blk0, V_main_arg0]
  have e : colOf t jj = Cert.Spec.tcol (t.val % 4) jj :=
    Fin.ext ((Cert.Spec.tcol_val _ (Nat.mod_lt _ (by norm_num)) jj).symm)
  rw [e]; rfl

theorem B1 (t : Fin cfg0.N) (i d : Fin 1024) :
    iblk m c 1 t (ix3 (0 : Fin 1) i d) = Rm m c (bOf t) d i := by
  rw [blk1, V_v0_apply]; rfl

theorem B2 (t : Fin cfg0.N) (o d : Fin 1024) : iblk m c 2 t (ix2 o d) = Wm m c o d := by
  rw [blk2, V_v1_apply]; rfl

theorem B3 (t : Fin cfg0.N) (o : Fin 1024) : iblk m c 3 t (ix2 (0 : Fin 1) o) = βm m c o := by
  rw [blk3, V_v2_apply]; rfl

/-- The review's ReLU-linear image of the batch member at a point. -/
def img (t : Fin cfg0.N) : Fin 1024 → Fin 1024 → EReal :=
  Cert.Spec.rlin (fun i d => Rm m c (bOf t) d i) (Wm m c) (βm m c)

/-- What the body stores into the first scratch at a batch member's first tile is that image. -/
theorem img_eq (t : Fin cfg0.N) (i o : Fin 1024) :
    k0_pay9 (F := Ideal) (iblk m c 2 t) (iblk m c 3 t) (iblk m c 1 t) (ix2 i o) = img m c t i o := by
  refine (pay9_apply (iblk m c 2 t) (iblk m c 3 t) (iblk m c 1 t) i o).trans ?_
  have e1 : (fun (i d : Fin 1024) => iblk m c 1 t (ix3 (0 : Fin 1) i d)) = fun i d => Rm m c (bOf t) d i :=
    funext fun i => funext fun d => B1 m c t i d
  have e2 : (fun (o d : Fin 1024) => iblk m c 2 t (ix2 o d)) = Wm m c := funext fun o => funext fun d => B2 m c t o d
  have e3 : (fun (o : Fin 1024) => iblk m c 3 t (ix2 (0 : Fin 1) o)) = βm m c := funext fun o => B3 m c t o
  rw [e1, e2, e3]; rfl

/-- A tile's weights, computed against a scratch that holds the image, are the weights of the tile's columns. -/
theorem tileWeight (t : Fin cfg0.N) (xs0 : Vec Ideal S1024x1024 .bf16)
    (hx : ∀ i o : Fin 1024, xs0 (ix2 i o) = img m c t i o) (jj : Fin 256) (i : Fin 1024) :
    k0_pay13 (F := Ideal) (iblk m c 2 t) (iblk m c 3 t) (iblk m c 0 t) xs0 (ix2 jj i)
      = wt m c (bOf t) (Cert.Spec.tcol (t.val % 4) jj) i := by
  refine (pay13_apply (iblk m c 2 t) (iblk m c 3 t) (iblk m c 0 t) xs0 jj i).trans ?_
  have e0 : (fun (d : Fin 1024) (jj : Fin 256) => iblk m c 0 t (ix3 (0 : Fin 1) d jj))
      = fun d jj => Pm m c (bOf t) d (Cert.Spec.tcol (t.val % 4) jj) := funext fun d => funext fun jj => B0 m c t d jj
  have e2 : (fun (o d : Fin 1024) => iblk m c 2 t (ix2 o d)) = Wm m c := funext fun o => funext fun d => B2 m c t o d
  have e3 : (fun (o : Fin 1024) => iblk m c 3 t (ix2 (0 : Fin 1) o)) = βm m c := funext fun o => B3 m c t o
  have ex : (fun (i o : Fin 1024) => xs0 (ix2 i o)) = img m c t := funext fun i => funext fun o => hx i o
  rw [e0, e2, e3, ex]; rfl

/-- The column sums one tile adds. -/
theorem colShare (t : Fin cfg0.N) (xs0 : Vec Ideal S1024x1024 .bf16)
    (hx : ∀ i o : Fin 1024, xs0 (ix2 i o) = img m c t i o) (i : Fin 1024) :
    ∑ jj : Fin 256, k0_pay13 (F := Ideal) (iblk m c 2 t) (iblk m c 3 t) (iblk m c 0 t) xs0 (ix2 jj i)
      = gCol m c (bOf t) i (t.val % 4) :=
  Finset.sum_congr rfl fun jj _ => tileWeight m c t xs0 hx jj i

/-- The weighted paper rows one tile adds. -/
theorem prShare (t : Fin cfg0.N) (xs0 : Vec Ideal S1024x1024 .bf16)
    (hx : ∀ i o : Fin 1024, xs0 (ix2 i o) = img m c t i o) (i d : Fin 1024) :
    ∑ jj : Fin 256, k0_pay13 (F := Ideal) (iblk m c 2 t) (iblk m c 3 t) (iblk m c 0 t) xs0 (ix2 jj i)
        * iblk m c 0 t (ix3 (0 : Fin 1) d jj)
      = gPr m c (bOf t) i d (t.val % 4) :=
  Finset.sum_congr rfl fun jj _ => by rw [tileWeight m c t xs0 hx jj i, B0]

/-! ## The invariant -/

/-- What the three carried buffers hold after point n. -/
def Holds (n : ℕ) (h : n < cfg0.N) : Prop :=
  (∀ i o : Fin 1024, (outsAt0 m c n h).2.2.2.1 (ix2 i o) = img m c ⟨n, h⟩ i o)
  ∧ (∀ i : Fin 1024, (outsAt0 m c n h).2.2.2.2 (ix2 (0 : Fin 1) i) = Cert.Spec.acc (gCol m c (bOf ⟨n, h⟩) i) (n % 4))
  ∧ (∀ i d : Fin 1024, (outsAt0 m c n h).2.1 (ix3 (0 : Fin 1) i d) = Cert.Spec.acc (gPr m c (bOf ⟨n, h⟩) i d) (n % 4))

/-- At a batch member's first tile. -/
theorem holds_first (t : Fin cfg0.N) (h0 : t.val % 4 = 0) : Holds m c t.val t.isLt := by
  have h1 : ¬t.val % 4 = 3 := by omega
  obtain ⟨e0, e1, e5⟩ := Cert.KernelIdeal.Comp.first m c t h0 h1
  have hx : ∀ i o : Fin 1024,
      k0_pay9 (F := Ideal) (iblk m c 2 t) (iblk m c 3 t) (iblk m c 1 t) (ix2 i o) = img m c t i o := img_eq m c t
  refine ⟨fun i o => ?_, fun i => ?_, fun i d => ?_⟩
  · rw [e0]; exact hx i o
  · rw [e1, pay1_eq]
    refine (pay14_apply (iblk m c 2 t) (iblk m c 3 t) (iblk m c 0 t) _ _ i).trans ?_
    rw [pay10_apply, colShare m c t _ hx i, h0]; rfl
  · rw [e5]
    refine (pay2_apply (iblk m c 0 t) _ _ i d).trans ?_
    rw [pay11_apply, prShare m c t _ hx i d, h0]; rfl

/-- At any other tile, from the point before. -/
theorem holds_next (t : Fin cfg0.N) (h0 : ¬t.val % 4 = 0)
    (e0 : (outsAt0 m c t.val t.isLt).2.2.2.1 = (outsAt0 m c (t.val - 1) (Nat.lt_of_le_of_lt (Nat.sub_le _ _) t.isLt)).2.2.2.1)
    (e1 : (outsAt0 m c t.val t.isLt).2.2.2.2
        = k0_pay1 (k0_pay14 (iblk m c 2 t) (iblk m c 3 t) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2))
    (e5 : (outsAt0 m c t.val t.isLt).2.1
        = k0_pay2 (k0_pay12 (iblk m c 0 t)) (k0_pay13 (iblk m c 2 t) (iblk m c 3 t) (iblk m c 0 t) (outsAt0 m c (t.val - 1) (Nat.lt_of_le_of_lt (Nat.sub_le _ _) t.isLt)).2.2.2.1) (outsAt0 m c (t.val - 1) (Nat.lt_of_le_of_lt (Nat.sub_le _ _) t.isLt)).2.1)
    (ih : Holds m c (t.val - 1) (Nat.lt_of_le_of_lt (Nat.sub_le _ _) t.isLt)) : Holds m c t.val t.isLt := by
  obtain ⟨i0, i1, i5⟩ := ih
  have hb : bOf ⟨t.val - 1, Nat.lt_of_le_of_lt (Nat.sub_le _ _) t.isLt⟩ = bOf t := Fin.ext (by show (t.val - 1) / 4 = t.val / 4; omega)
  obtain ⟨k, hk1, hk2⟩ : ∃ k, t.val % 4 = k + 1 ∧ (t.val - 1) % 4 = k := ⟨(t.val - 1) % 4, by omega, rfl⟩
  have hx : ∀ i o : Fin 1024, (outsAt0 m c (t.val - 1) (Nat.lt_of_le_of_lt (Nat.sub_le _ _) t.isLt)).2.2.2.1 (ix2 i o) = img m c t i o := fun i o => by
    rw [i0 i o]; unfold img; rw [hb]
  refine ⟨fun i o => ?_, fun i => ?_, fun i d => ?_⟩
  · rw [e0]; exact hx i o
  · rw [e1, pay1_eq]
    refine (pay14_apply (iblk m c 2 t) (iblk m c 3 t) (iblk m c 0 t) _ _ i).trans ?_
    rw [i1 i, colShare m c t _ hx i, hb, hk1, hk2]; rfl
  · rw [e5]
    refine (pay2_apply (iblk m c 0 t) _ _ i d).trans ?_
    rw [i5 i d, prShare m c t _ hx i d, hb, hk1, hk2]; rfl

/-- The invariant at every point. -/
theorem holds : ∀ (n : ℕ) (h : n < cfg0.N), Holds m c n h
  | 0, h => holds_first m c ⟨0, h⟩ rfl
  | n + 1, h => by
    by_cases h0 : (n + 1) % 4 = 0
    · exact holds_first m c ⟨n + 1, h⟩ h0
    · have ih := holds n (Nat.lt_of_succ_lt h)
      by_cases h1 : (n + 1) % 4 = 3
      · obtain ⟨e0, e1, e5, -⟩ := Cert.KernelIdeal.Comp.last m c ⟨n + 1, h⟩ h0 h1
        exact holds_next m c ⟨n + 1, h⟩ h0 e0 e1 e5 ih
      · obtain ⟨e0, e1, e5⟩ := Cert.KernelIdeal.Comp.middle m c ⟨n + 1, h⟩ h0 h1
        exact holds_next m c ⟨n + 1, h⟩ h0 e0 e1 e5 ih

end Cert.KernelIdeal.Inv

end
-- ==== Proof.Done.lean ====
/-
  A batch member's last tile: the accumulated sums are complete.

  After the fourth tile the column-sum scratch and the Pr block hold the sums over the four tiles of 256 paper
  columns, accumulated from zero; regrouped, these are the sums over all 1024 columns. The Rp block stored at that
  point is the review rows times those column sums.
-/
import proofs.«155025_j15642270892415_2_alg».proof.Proof.Inv

noncomputable section

open Idealize.ShloMosaic Idealize.ShloMosaic.TcCoe Idealize.SL.Sem Idealize.ShloMosaic.ValueIdx
open Idealize.ShloMosaic.Pipeline (Dat)

namespace Cert.KernelIdeal.Done

open Cert.KernelIdeal Cert.KernelIdeal.Gen Cert.KernelIdeal.Blocks Cert.KernelIdeal.Pay Cert.KernelIdeal.Inv

variable (m : (ℓ : Loc nD τ sig) → Buf (Elt Ideal) ℓ) (ρ : Dev nD → PrngReg)

/-- The column sums are complete: the sum over all paper columns of the weights on review position i. -/
theorem col_done (c : Dev nD) (t : Fin cfg0.N) (h3 : t.val % 4 = 3) (i : Fin 1024) :
    (outsAt0 m c t.val t.isLt).2.2.2.2 (ix2 (0 : Fin 1) i) = ∑ j : Fin 1024, wt m c (bOf t) j i := by
  rw [(holds m c t.val t.isLt).2.1 i, h3]
  exact Cert.Spec.acc_three_eq_sum fun j => wt m c (bOf t) j i

/-- The Pr block is complete. -/
theorem pr_done (c : Dev nD) (t : Fin cfg0.N) (h3 : t.val % 4 = 3) (i d : Fin 1024) :
    (outsAt0 m c t.val t.isLt).2.1 (ix3 (0 : Fin 1) i d)
      = Cert.Spec.Pr (Pm m c) (Rm m c) (Wm m c) (βm m c) Cert.Spec.sK Cert.Spec.ninfK (bOf t) i d := by
  rw [(holds m c t.val t.isLt).2.2 i d, h3]
  exact Cert.Spec.acc_three_eq_sum fun j => wt m c (bOf t) j i * Pm m c (bOf t) d j

/-- The Rp block: the review row times its total attention. -/
theorem rp_done (c : Dev nD) (t : Fin cfg0.N) (h3 : t.val % 4 = 3) (i d : Fin 1024) :
    (outsAt0 m c t.val t.isLt).1 (ix3 (0 : Fin 1) i d)
      = Cert.Spec.Rp (Pm m c) (Rm m c) (Wm m c) (βm m c) Cert.Spec.sK Cert.Spec.ninfK (bOf t) i d := by
  have h0 : ¬t.val % 4 = 0 := by omega
  obtain ⟨-, e1, -, e4⟩ := Cert.KernelIdeal.Comp.last m c t h0 h3
  have hc := col_done m c t h3 i
  rw [e1] at hc
  rw [e4]
  refine (pay3_apply _ _ i d).trans ?_
  rw [hc, B1]; rfl

end Cert.KernelIdeal.Done

end
-- ==== Proof.PiecesRc.lean ====
/-
  The last tile's three stores into the Rc block, read back.

  At the last tile of a batch member the body stores three [1, 1024, 1024] blocks into the [1, 3072, 1024] Rc block, at
  rows 0, 1024 and 2048 of its middle axis: the review block, Rp and Pr. The three rectangles tile the Rc block, so
  every index is covered by exactly the store whose row range holds its middle coordinate, and the buffer reads back
  as one function of its index: at (0, r, d) the first block at (0, r, d) when r < 1024, the second at (0, r − 1024, d)
  when 1024 ≤ r < 2048, the third at (0, r − 2048, d) otherwise. Element x of the store at row offset o sits at
  (0, o + x 1, x 2), which is where that function reads the same block at x.
-/
import proofs.«155025_j15642270892415_2_alg».proof.Proof.Pieces

noncomputable section

open Idealize.ShloMosaic Idealize.ShloMosaic.TcCoe Idealize.ShloMosaic.Tactic Idealize.SL.Sem Idealize.ShloMosaic.ValueIdx

namespace Cert.KernelIdeal.Pieces

open Cert.KernelIdeal Cert.KernelIdeal.Gen

variable {F : FTy → Type} [FloatOps F]

/-- The stack read in its first block. -/
theorem stack3_lo (A B C : Vec F S1x1024x1024 .f32) (y : S1x3072x1024.Idx) (h : (y 1).val < 1024) :
    stack3 A B C y = A (ix3 (0 : Fin 1) (⟨(y 1).val, h⟩ : Fin 1024) (⟨(y 2).val, (y 2).isLt⟩ : Fin 1024)) := by
  unfold stack3
  rw [dif_pos h]

/-- The stack read in its second block. -/
theorem stack3_mid (A B C : Vec F S1x1024x1024 .f32) (y : S1x3072x1024.Idx) (h1 : ¬(y 1).val < 1024) (h2 : (y 1).val < 2048) :
    stack3 A B C y = B (ix3 (0 : Fin 1) (⟨(y 1).val - 1024, by omega⟩ : Fin 1024) (⟨(y 2).val, (y 2).isLt⟩ : Fin 1024)) := by
  unfold stack3
  rw [dif_neg h1, dif_pos h2]

/-- The stack read in its third block. -/
theorem stack3_hi (A B C : Vec F S1x1024x1024 .f32) (y : S1x3072x1024.Idx) (h1 : ¬(y 1).val < 1024) (h2 : ¬(y 1).val < 2048) :
    stack3 A B C y = C (ix3 (0 : Fin 1) (⟨(y 1).val - 2048, by have h3 : (y 1).val < 3072 := (y 1).isLt; omega⟩ : Fin 1024) (⟨(y 2).val, (y 2).isLt⟩ : Fin 1024)) := by
  unfold stack3
  rw [dif_neg h1, dif_neg h2]

/-- The Rc block: the review block, Rp and Pr one under the other. The three stores tile the block along its middle
    axis, at rows 0, 1024 and 2048; the element `x` of the store at row offset `r` lands at `(0, r + x 1, x 2)`,
    which the stack reads back from the block of that offset at `x`. -/
theorem oC6 (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x3072x1024 .f32) (harg8 : arg8.IsWhole) (arg9 : Memref sig .tc .vmem S1024x1024 .bf16) (harg9 : arg9.IsWhole) (arg10 : Memref sig .tc .vmem S1x1024 .f32) (harg10 : arg10.IsWhole) (hc0 : ¬cond0_0 i) (hc1 : cond0_1 i) (x0 : Vec F S1x1024x256 .f32) (x1 : Vec F S1x1024x1024 .f32) (x2 : Vec F S1024x1024 .bf16) (x3 : Vec F S1x1024 .f32) (xo5 : Vec F S1x1024x1024 .f32) (xs0 : Vec F S1024x1024 .bf16) (xs1 : Vec F S1x1024 .f32) :
    out0_C_6 c i arg2 harg2 arg3 harg3 arg4 harg4 arg5 harg5 arg6 harg6 arg7 harg7 arg8 harg8 arg9 harg9 arg10 harg10 hc0 hc1 x0 x1 x2 x3 xo5 xs0 xs1
      = stack3 (k0_pay4 x1) (k0_pay5 (k0_pay3 (k0_pay1 (k0_pay14 x2 x3 x0 xs0 xs1)) x1)) (k0_pay6 (k0_pay2 (k0_pay12 x0) (k0_pay13 x2 x3 x0 xs0) xo5)) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 xo5 xs0 xs1)]
  funext y
  have hcov := cover0_C_6 c i arg2 harg2 arg3 harg3 arg4 harg4 arg5 harg5 arg6 harg6 arg7 harg7 arg8 harg8 arg9 harg9 arg10 harg10 hc0 hc1 x0 x1 x2 x3 xo5 xs0 xs1 y
  revert hcov
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, View.ld_unit_zero (S := S1x1024) hz2, View.ld_unit_zero (S := S1024x1024) hz2, View.ld_unit_zero (S := S1x1024x256) hz3, View.ld_unit_zero (S := S1x1024x1024) hz3, View.readCov_unit_zero (S := S1024x1024) _ hz2, View.readCov_unit_zero (S := S1x1024) _ hz2, View.readCov_unit_zero (S := S1x1024x1024) _ hz3]
  intro hcov
  refine View.canon_apply_of_pieces (stack3 (k0_pay4 x1) (k0_pay5 (k0_pay3 (k0_pay1 (k0_pay14 x2 x3 x0 xs0 xs1)) x1)) (k0_pay6 (k0_pay2 (k0_pay12 x0) (k0_pay13 x2 x3 x0 xs0) xo5))) _ (fun p hp x => ?_) y hcov
  rcases List.mem_cons.mp hp with rfl | hp
  · have hx0 : (x 0).val < 1 := (x 0).isLt
    have hx1 : (x 1).val < 1024 := (x 1).isLt
    have e1 : (((Rect.unit (s := S1x3072x1024) ![0, 2048, 0] ![1, 1024, 1024] inb_S1x3072x1024_S1x1024x1024_0_2048_0).emb x) 1).val = 2048 + 1 * (x 1).val := rfl
    refine Eq.trans ?_ (stack3_hi _ _ _ _ (by rw [e1]; omega) (by rw [e1]; omega)).symm
    refine congrArg _ (funext fun a => Fin.ext ?_)
    match a with
    | ⟨0, _⟩ => show (x 0).val = 0; omega
    | ⟨1, _⟩ => show (x 1).val = 2048 + 1 * (x 1).val - 2048; omega
    | ⟨2, _⟩ => show (x 2).val = 0 + 1 * (x 2).val; omega
  rcases List.mem_cons.mp hp with rfl | hp
  · have hx0 : (x 0).val < 1 := (x 0).isLt
    have hx1 : (x 1).val < 1024 := (x 1).isLt
    have e1 : (((Rect.unit (s := S1x3072x1024) ![0, 1024, 0] ![1, 1024, 1024] inb_S1x3072x1024_S1x1024x1024_0_1024_0).emb x) 1).val = 1024 + 1 * (x 1).val := rfl
    refine Eq.trans ?_ (stack3_mid _ _ _ _ (by rw [e1]; omega) (by rw [e1]; omega)).symm
    refine congrArg _ (funext fun a => Fin.ext ?_)
    match a with
    | ⟨0, _⟩ => show (x 0).val = 0; omega
    | ⟨1, _⟩ => show (x 1).val = 1024 + 1 * (x 1).val - 1024; omega
    | ⟨2, _⟩ => show (x 2).val = 0 + 1 * (x 2).val; omega
  rcases List.mem_cons.mp hp with rfl | hp
  · have hx0 : (x 0).val < 1 := (x 0).isLt
    have hx1 : (x 1).val < 1024 := (x 1).isLt
    have e1 : (((Rect.unit (s := S1x3072x1024) ![0, 0, 0] ![1, 1024, 1024] inb_S1x3072x1024_S1x1024x1024_0_0_0).emb x) 1).val = 0 + 1 * (x 1).val := rfl
    refine Eq.trans ?_ (stack3_lo _ _ _ _ (by rw [e1]; omega)).symm
    refine congrArg _ (funext fun a => Fin.ext ?_)
    match a with
    | ⟨0, _⟩ => show (x 0).val = 0; omega
    | ⟨1, _⟩ => show (x 1).val = 0 + 1 * (x 1).val; omega
    | ⟨2, _⟩ => show (x 2).val = 0 + 1 * (x 2).val; omega
  · exact absurd hp List.not_mem_nil

end Cert.KernelIdeal.Pieces

end
-- ==== Proof.CompRc.lean ====
/-
  The Rc block after a batch member's last tile: the review block, the Rp block and the Pr block as that point
  leaves them, one under the other.
-/
import proofs.«155025_j15642270892415_2_alg».proof.Proof.Comp
import proofs.«155025_j15642270892415_2_alg».proof.Proof.PiecesRc

noncomputable section

open Idealize.ShloMosaic Idealize.ShloMosaic.TcCoe Idealize.SL.Sem Idealize.ShloMosaic.ValueIdx

namespace Cert.KernelIdeal.Comp

open Cert.KernelIdeal Cert.KernelIdeal.Gen Cert.KernelIdeal.Pieces

variable {F : FTy → Type} [FloatOps F]
variable (m : (ℓ : Loc nD τ sig) → Buf (Elt F) ℓ)

theorem lastRc (c : Dev nD) (t : Fin cfg0.N) (h0 : ¬t.val % 4 = 0) (h1 : t.val % 4 = 3) :
    (outsAt0 m c t.val t.isLt).2.2.1
      = stack3 (k0_pay4 (iblk m c 1 t)) (k0_pay5 (outsAt0 m c t.val t.isLt).1) (k0_pay6 (outsAt0 m c t.val t.isLt).2.1) := by
  obtain ⟨-, -, e5, e4⟩ := last m c t h0 h1
  rw [e4, e5]
  have a6 := oC6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [outsAt0_C m c t h0 h1]
  dsimp only
  exact a6

end Cert.KernelIdeal.Comp

end
-- ==== Proof.Cover.lean ====
/-
  The geometry of the three output windows.

  The grid's point number n stands for batch member n / 4 and paper tile n % 4. Each output array is cut along its
  first axis into 32 slabs, one per batch member; the block of an output window at point n is batch member n / 4's
  slab, whole, so that element (0, i, d) of the block is element (n / 4, i, d) of the array. A slab is written back at
  the last tile of its batch member, the points n with n % 4 = 3; hence every index (b, i, d) of an output array lies
  in the block written back at point 4 · b + 3, and the slabs cover the array. The slabs tile the arrays exactly, so a
  write-back moves the whole block and clips nothing.
-/
import proofs.«155025_j15642270892415_2_alg».proof.Proof.Blocks
import proofs.«155025_j15642270892415_2_alg».proof.Proof.Gen.KernelIdeal.Points

noncomputable section

open Idealize.ShloMosaic Idealize.ShloMosaic.TcCoe Idealize.SL.Sem Idealize.ShloMosaic.ValueIdx

namespace Cert.KernelIdeal.Cover

open Cert.KernelIdeal Cert.KernelIdeal.Gen

variable {F : FTy → Type} [FloatOps F]

/-! ## Output window 4 -/

/-- The block of output window 4 at a point, element by element: batch member `t / 4`'s slab. -/
theorem emb_4 (t : Fin cfg0.N) (i : Fin 1024) (d : Fin 1024) :
    ((cfg0.win 4).blk t).view.emb (ix3 (0 : Fin 1) i d) = ix3 (Blocks.bOf t) i d := by
  obtain ⟨e0, e1, e2, -⟩ := Blocks.idx_out t
  refine funext fun a => Fin.ext ?_
  match a with
  | ⟨0, _⟩ => show win0_4.index t (0 : Fin 3) * 1 + 1 * 0 = t.val / 4; omega
  | ⟨1, _⟩ => show win0_4.index t (1 : Fin 3) * 1024 + 1 * i.val = i.val; omega
  | ⟨2, _⟩ => show win0_4.index t (2 : Fin 3) * 1024 + 1 * d.val = d.val; omega

/-- An index of the array is in a point's block iff each coordinate is in the block's range on its axis. -/
theorem mem_blk4 (t : Fin cfg0.N) (i : S32x1024x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v3_0).slice (win0_4.rect t)).set ↔ _
  rw [View.set_slice_whole, Rect.mem_set_unit]
  exact Iff.rfl

/-- Every index of the array is in the block written back at the last tile of its batch member, point `4 · b + 3`. -/
theorem cover_4 : ∀ i : S32x1024x1024.Idx, ∃ t : Fin cfg0.N, (cfg0.win 4).flush t = true ∧ i ∈ ((cfg0.win 4).blk t).view.set := by
  intro i
  have hi0 : (i 0).val < 32 := (i 0).isLt
  have hi1 : (i 1).val < 1024 := (i 1).isLt
  have hi2 : (i 2).val < 1024 := (i 2).isLt
  have hN : cfg0.N = 128 := N_0
  obtain ⟨t, htv⟩ : ∃ t : Fin cfg0.N, t.val = 4 * (i 0).val + 3 := ⟨⟨4 * (i 0).val + 3, by omega⟩, rfl⟩
  obtain ⟨e0, e1, e2, -⟩ := Blocks.idx_out t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- The blocks tile the array: a write-back moves the whole block. -/
theorem cut_4 (t : Fin cfg0.N) (v : Vec F S1x1024x1024 .f32) : (cfg0.win 4).cut (grid0.coords t) v = v := rfl

/-! ## Output window 5 -/

/-- The block of output window 5 at a point, element by element: batch member `t / 4`'s slab. -/
theorem emb_5 (t : Fin cfg0.N) (i : Fin 1024) (d : Fin 1024) :
    ((cfg0.win 5).blk t).view.emb (ix3 (0 : Fin 1) i d) = ix3 (Blocks.bOf t) i d := by
  obtain ⟨-, -, -, e0, e1, e2, -⟩ := Blocks.idx_out t
  refine funext fun a => Fin.ext ?_
  match a with
  | ⟨0, _⟩ => show win0_5.index t (0 : Fin 3) * 1 + 1 * 0 = t.val / 4; omega
  | ⟨1, _⟩ => show win0_5.index t (1 : Fin 3) * 1024 + 1 * i.val = i.val; omega
  | ⟨2, _⟩ => show win0_5.index t (2 : Fin 3) * 1024 + 1 * d.val = d.val; omega

/-- An index of the array is in a point's block iff each coordinate is in the block's range on its axis. -/
theorem mem_blk5 (t : Fin cfg0.N) (i : S32x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v3_1).slice (win0_5.rect t)).set ↔ _
  rw [View.set_slice_whole, Rect.mem_set_unit]
  exact Iff.rfl

/-- Every index of the array is in the block written back at the last tile of its batch member, point `4 · b + 3`. -/
theorem cover_5 : ∀ i : S32x1024x1024.Idx, ∃ t : Fin cfg0.N, (cfg0.win 5).flush t = true ∧ i ∈ ((cfg0.win 5).blk t).view.set := by
  intro i
  have hi0 : (i 0).val < 32 := (i 0).isLt
  have hi1 : (i 1).val < 1024 := (i 1).isLt
  have hi2 : (i 2).val < 1024 := (i 2).isLt
  have hN : cfg0.N = 128 := N_0
  obtain ⟨t, htv⟩ : ∃ t : Fin cfg0.N, t.val = 4 * (i 0).val + 3 := ⟨⟨4 * (i 0).val + 3, by omega⟩, rfl⟩
  obtain ⟨-, -, -, e0, e1, e2, -⟩ := Blocks.idx_out t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- The blocks tile the array: a write-back moves the whole block. -/
theorem cut_5 (t : Fin cfg0.N) (v : Vec F S1x1024x1024 .f32) : (cfg0.win 5).cut (grid0.coords t) v = v := rfl

/-! ## Output window 6 -/

/-- The block of output window 6 at a point, element by element: batch member `t / 4`'s slab. -/
theorem emb_6 (t : Fin cfg0.N) (i : Fin 3072) (d : Fin 1024) :
    ((cfg0.win 6).blk t).view.emb (ix3 (0 : Fin 1) i d) = ix3 (Blocks.bOf t) i d := by
  obtain ⟨-, -, -, -, -, -, e0, e1, e2⟩ := Blocks.idx_out t
  refine funext fun a => Fin.ext ?_
  match a with
  | ⟨0, _⟩ => show win0_6.index t (0 : Fin 3) * 1 + 1 * 0 = t.val / 4; omega
  | ⟨1, _⟩ => show win0_6.index t (1 : Fin 3) * 3072 + 1 * i.val = i.val; omega
  | ⟨2, _⟩ => show win0_6.index t (2 : Fin 3) * 1024 + 1 * d.val = d.val; omega

/-- An index of the array is in a point's block iff each coordinate is in the block's range on its axis. -/
theorem mem_blk6 (t : Fin cfg0.N) (i : S32x3072x1024.Idx) :
    i ∈ ((cfg0.win 6).blk t).view.set ↔ ∀ a : Fin 3, win0_6.index t a * S1x3072x1024.size a ≤ (i a).val ∧ (i a).val < win0_6.index t a * S1x3072x1024.size a + S1x3072x1024.size a := by
  show i ∈ ((View.whole main_v3_2).slice (win0_6.rect t)).set ↔ _
  rw [View.set_slice_whole, Rect.mem_set_unit]
  exact Iff.rfl

/-- Every index of the array is in the block written back at the last tile of its batch member, point `4 · b + 3`. -/
theorem cover_6 : ∀ i : S32x3072x1024.Idx, ∃ t : Fin cfg0.N, (cfg0.win 6).flush t = true ∧ i ∈ ((cfg0.win 6).blk t).view.set := by
  intro i
  have hi0 : (i 0).val < 32 := (i 0).isLt
  have hi1 : (i 1).val < 3072 := (i 1).isLt
  have hi2 : (i 2).val < 1024 := (i 2).isLt
  have hN : cfg0.N = 128 := N_0
  obtain ⟨t, htv⟩ : ∃ t : Fin cfg0.N, t.val = 4 * (i 0).val + 3 := ⟨⟨4 * (i 0).val + 3, by omega⟩, rfl⟩
  obtain ⟨-, -, -, -, -, -, e0, e1, e2⟩ := Blocks.idx_out t
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 3072 ≤ (i 1).val ∧ (i 1).val < win0_6.index t (1 : Fin 3) * 3072 + 3072; omega
  | ⟨2, _⟩ => show win0_6.index t (2 : Fin 3) * 1024 ≤ (i 2).val ∧ (i 2).val < win0_6.index t (2 : Fin 3) * 1024 + 1024; omega

/-- The blocks tile the array: a write-back moves the whole block. -/
theorem cut_6 (t : Fin cfg0.N) (v : Vec F S1x3072x1024 .f32) : (cfg0.win 6).cut (grid0.coords t) v = v := rfl

end Cert.KernelIdeal.Cover

end
-- ==== Proof.Final.lean ====
/-
  The three result arrays after the run.

  Each output window writes its block back once per batch member, after the member's last tile, and batch member
  b's block is slab b of its array. By then the Rp block holds the review rows times their total attention, the Pr
  block the attention-weighted paper rows, and the Rc block the review, Rp and Pr one under the other: the
  specification's three results at slab b. The 32 slabs cover the arrays, so the arrays end holding the
  specification's results, and the run can be re-posted with them named.
-/
import proofs.«155025_j15642270892415_2_alg».proof.Proof.Done
import proofs.«155025_j15642270892415_2_alg».proof.Proof.CompRc
import proofs.«155025_j15642270892415_2_alg».proof.Proof.Cover
import proofs.«155025_j15642270892415_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Pay Cert.KernelIdeal.Inv Cert.KernelIdeal.Done

variable (m : (ℓ : Loc nD τ sig) → Buf (Elt Ideal) ℓ) (ρ : Dev nD → PrngReg)

/-- The three result arrays as the specification gives them from the four arguments. -/
def G4 (c : Dev nD) : Buf (Elt Ideal) ((c : Thread nD τ).loc main_v3_0) :=
  Cert.Spec.outRp (m ((c : Thread nD τ).loc main_arg0)) (m ((c : Thread nD τ).loc main_arg1)) (m ((c : Thread nD τ).loc main_arg2)) (m ((c : Thread nD τ).loc main_arg3))
def G5 (c : Dev nD) : Buf (Elt Ideal) ((c : Thread nD τ).loc main_v3_1) :=
  Cert.Spec.outPr (m ((c : Thread nD τ).loc main_arg0)) (m ((c : Thread nD τ).loc main_arg1)) (m ((c : Thread nD τ).loc main_arg2)) (m ((c : Thread nD τ).loc main_arg3))
def G6 (c : Dev nD) : Buf (Elt Ideal) ((c : Thread nD τ).loc main_v3_2) :=
  Cert.Spec.outRc (m ((c : Thread nD τ).loc main_arg0)) (m ((c : Thread nD τ).loc main_arg1)) (m ((c : Thread nD τ).loc main_arg2)) (m ((c : Thread nD τ).loc main_arg3))

/-- The Rc block at a batch member's last tile is the specification's stacked result for that member. -/
theorem rc_done (c : Dev nD) (t : Fin cfg0.N) (h3 : t.val % 4 = 3) (k : Fin 3072) (d : Fin 1024) :
    (outsAt0 m c t.val t.isLt).2.2.1 (ix3 (0 : Fin 1) k d)
      = Cert.Spec.Rc (Pm m c) (Rm m c) (Wm m c) (βm m c) Cert.Spec.sK Cert.Spec.ninfK (bOf t) k d := by
  have h0 : ¬t.val % 4 = 0 := by omega
  rw [Cert.KernelIdeal.Comp.lastRc m c t h0 h3]
  unfold Cert.KernelIdeal.Pieces.stack3 Cert.Spec.Rc
  by_cases hk : k.val < 1024
  · rw [dif_pos (show ((ix3 (0 : Fin 1) k d : S1x3072x1024.Idx) 1).val < 1024 from hk), dif_pos hk]
    exact (pay4_apply _ ⟨k.val, hk⟩ d).trans (B1 m c t ⟨k.val, hk⟩ d)
  · rw [dif_neg (show ¬((ix3 (0 : Fin 1) k d : S1x3072x1024.Idx) 1).val < 1024 from hk), dif_neg hk]
    by_cases hk2 : k.val < 2048
    · rw [dif_pos (show ((ix3 (0 : Fin 1) k d : S1x3072x1024.Idx) 1).val < 2048 from hk2), dif_pos hk2]
      exact (pay5_apply _ ⟨k.val - 1024, by omega⟩ d).trans (rp_done m c t h3 ⟨k.val - 1024, by omega⟩ d)
    · rw [dif_neg (show ¬((ix3 (0 : Fin 1) k d : S1x3072x1024.Idx) 1).val < 2048 from hk2), dif_neg hk2]
      exact (pay6_apply _ ⟨k.val - 2048, by have := k.isLt; omega⟩ d).trans (pr_done m c t h3 ⟨k.val - 2048, by have := k.isLt; omega⟩ d)

/-! ## What is written back, and the arrays after the run -/

theorem flushed4_eq (c : Dev nD) (t : Fin cfg0.N) (hf : (cfg0.win 4).flush t = true) :
    (dats m 0 c).flushed 4 t = ((cfg0.win 4).blk t).view.read (Elt Ideal) (G4 m c) := by
  have h3 : t.val % 4 = 3 := (flush0_4 t).mp hf
  rw [Cert.KernelIdeal.Value.flushed4, Cert.KernelIdeal.Cover.cut_4]
  funext (y : S1x1024x1024.Idx)
  obtain ⟨u, i, d, rfl⟩ : ∃ (u : Fin 1) (i d : Fin 1024), y = ix3 u i d := ⟨y 0, y 1, y 2, eq_ix3 y⟩
  obtain rfl : u = 0 := Subsingleton.elim _ _
  rw [View.read_apply, Cert.KernelIdeal.Cover.emb_4, rp_done m c t h3 i d]
  rfl

theorem flushed5_eq (c : Dev nD) (t : Fin cfg0.N) (hf : (cfg0.win 5).flush t = true) :
    (dats m 0 c).flushed 5 t = ((cfg0.win 5).blk t).view.read (Elt Ideal) (G5 m c) := by
  have h3 : t.val % 4 = 3 := (flush0_5 t).mp hf
  rw [Cert.KernelIdeal.Value.flushed5, Cert.KernelIdeal.Cover.cut_5]
  funext (y : S1x1024x1024.Idx)
  obtain ⟨u, i, d, rfl⟩ : ∃ (u : Fin 1) (i d : Fin 1024), y = ix3 u i d := ⟨y 0, y 1, y 2, eq_ix3 y⟩
  obtain rfl : u = 0 := Subsingleton.elim _ _
  rw [View.read_apply, Cert.KernelIdeal.Cover.emb_5, pr_done m c t h3 i d]
  rfl

theorem flushed6_eq (c : Dev nD) (t : Fin cfg0.N) (hf : (cfg0.win 6).flush t = true) :
    (dats m 0 c).flushed 6 t = ((cfg0.win 6).blk t).view.read (Elt Ideal) (G6 m c) := by
  have h3 : t.val % 4 = 3 := (flush0_6 t).mp hf
  rw [Cert.KernelIdeal.Value.flushed6, Cert.KernelIdeal.Cover.cut_6]
  funext (y : S1x3072x1024.Idx)
  obtain ⟨u, k, d, rfl⟩ : ∃ (u : Fin 1) (k : Fin 3072) (d : Fin 1024), y = ix3 u k d := ⟨y 0, y 1, y 2, eq_ix3 y⟩
  obtain rfl : u = 0 := Subsingleton.elim _ _
  rw [View.read_apply, Cert.KernelIdeal.Cover.emb_6, rc_done m c t h3 k d]
  rfl

theorem final4 (c : Dev nD) : (dats m 0 c).arrAt 4 cfg0.N = G4 m c :=
  (dats m 0 c).arrAt_eq_of_cover 4 (G4 m c) (flushed4_eq m c) Cert.KernelIdeal.Cover.cover_4
theorem final5 (c : Dev nD) : (dats m 0 c).arrAt 5 cfg0.N = G5 m c :=
  (dats m 0 c).arrAt_eq_of_cover 5 (G5 m c) (flushed5_eq m c) Cert.KernelIdeal.Cover.cover_5
theorem final6 (c : Dev nD) : (dats m 0 c).arrAt 6 cfg0.N = G6 m c :=
  (dats m 0 c).arrAt_eq_of_cover 6 (G6 m c) (flushed6_eq m c) Cert.KernelIdeal.Cover.cover_6

/-- The run, read: the three result arrays at the specification's results of the arguments, the arguments unchanged. -/
theorem run : θ_run defs (onTc (τ := τ) (main (F := Ideal))) ⟨m, fun _ => 0, ρ⟩ fun r => ∀ c : Dev nD,
      r.2.mem ((c : Thread nD τ).loc main_v3_0) = G4 m c
      ∧ r.2.mem ((c : Thread nD τ).loc main_v3_1) = G5 m c
      ∧ r.2.mem ((c : Thread nD τ).loc main_v3_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
      (h c).2.2.1.trans (final6 m c), (h c).2.2.2⟩)
    (Cert.KernelIdeal.Value.run_blocks m ρ)

end Cert.KernelIdeal.Final

end
-- ==== Proof.lean ====
/-
  A cross-attention of reviews over papers, computed by a Pallas kernel tiled over (batch member, tile of 256 paper
  positions), against its plain jnp reference, on the exact values.

  For each batch member both programs compute, with p the paper block, r the transposed review block, W the weights
  and β the bias:
      rlin = relu (r · Wᵀ + β),  plin = relu (W · p + β)              the two ReLU-linear images,
      aff  = plinᵀ · rlinᵀ scaled by 1/32                            (the reference divides by sqrt 1024 = 32),
      soft = softmax of aff over the review positions, one paper position at a time,
      Rp   = r · (sum of soft over the paper positions),  Pr = softᵀ · pᵀ,  Rc = r, Rp, Pr stacked.
  The kernel walks the paper positions in four tiles, keeping rlin and the running column sums in scratch buffers
  and accumulating Pr in its output block from zero; the reference forms the whole arrays. The two agree because the
  softmax is columnwise (a tile of paper positions is computed exactly as inside the whole), a sum over 1024 positions
  is the sum of the four tiles' sums taken in order from zero (associativity and 0 + x = x on the extended reals),
  products commute, and x / 32 = x · (1/32) for every extended real x. No finiteness of the inputs is used.

  The mathematics is stated once, over plain index types (Spec); the reference's stages are read at an index and shown
  to be it (RefSpec, over the reference's run and stage lemmas); the kernel's three case bodies are read as values
  (Pieces, PiecesRc, Comp, CompRc over the generated frame), their arithmetic read at an index (PayLayout, Pay), the
  invariant of the run over the grid proved by induction on the point (Inv), and the result arrays read off the
  blocks written back (Blocks, HostPrefix, Cover, Done, Final).
-/
import proofs.«155025_j15642270892415_2_alg».proof.Defs
import proofs.«155025_j15642270892415_2_alg».proof.Proof.Gen.Kernel
import proofs.«155025_j15642270892415_2_alg».proof.Proof.Gen.Kernel.Frame
import proofs.«155025_j15642270892415_2_alg».proof.Proof.Gen.KernelIdeal
import proofs.«155025_j15642270892415_2_alg».proof.Proof.Gen.KernelIdeal.Frame
import proofs.«155025_j15642270892415_2_alg».proof.Proof.Gen.KernelIdeal.Value
import proofs.«155025_j15642270892415_2_alg».proof.Proof.Gen.ReferenceIdeal
import proofs.«155025_j15642270892415_2_alg».proof.Proof.Gen.Pre_finite_inputs
import proofs.«155025_j15642270892415_2_alg».proof.Proof.RefRun
import proofs.«155025_j15642270892415_2_alg».proof.Proof.RefRead
import proofs.«155025_j15642270892415_2_alg».proof.Proof.RefSpec
import proofs.«155025_j15642270892415_2_alg».proof.Proof.Final
import Idealize.ShloMosaic.Adequacy
import Idealize.ShloMosaic.Init

noncomputable section

namespace Cert.Proof

open Idealize.ShloMosaic Idealize.SL.Sem

/-- The printed kernel runs to the end without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- On the exact values both programs end with the specification's three arrays of arguments that agree. -/
theorem algebraic : Cert.algebraic_KernelIdeal_ReferenceIdeal := by
  intro m ρ m' ρ' _ hagree
  refine ⟨fun c => Cert.KernelIdeal.Final.G4 m c, fun c => Cert.KernelIdeal.Final.G5 m c,
    fun c => Cert.KernelIdeal.Final.G6 m c, Cert.KernelIdeal.Final.run m ρ, ?_⟩
  refine (θ_run Cert.ReferenceIdeal.defs _ _).mono (fun _ h c => ?_) (Cert.ReferenceIdeal.Value.run (F := Ideal) m' ρ')
  obtain ⟨h30, h31, h32, hargs⟩ := h c
  obtain ⟨a0, a1, a2, a3⟩ := hagree c
  refine ⟨h30.trans ?_, h31.trans ?_, h32.trans ?_, hargs⟩
  · rw [Cert.ReferenceIdeal.Read.val_main_v30_eq, a0, a1, a2, a3]
    exact Cert.ReferenceIdeal.RefSpec.v30_eq _ _ _ _
  · rw [Cert.ReferenceIdeal.Read.val_main_v31_eq, a0, a1, a2, a3]
    exact Cert.ReferenceIdeal.RefSpec.v31_eq _ _ _ _
  · rw [Cert.ReferenceIdeal.Read.val_main_v32_eq, a0, a1, a2, a3]
    exact Cert.ReferenceIdeal.RefSpec.v32_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
